-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S2x160000 : Shape := ⟨2, ![2, 160000]⟩
abbrev S512x512 : Shape := ⟨2, ![512, 512]⟩
abbrev S512 : Shape := ⟨1, ![512]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_arg15 : FVec F S512x512 .f32) (main_arg16 : FVec F S512 .f32) (main_v63 : IVec S_ 1) (main_v67 : IVec S_ 1) : IVec S_ 1 :=
  let main_v68 : IVec S_ 1 := andi main_v63 main_v67
  let main_v69 : FVec F S512x512 .f32 := Host.absf main_arg15
  let main_cst_26 : FVec F S_ .f32 := constant S_ .f32 0x7F800000#32
  let main_v70 : FVec F S512x512 .f32 := broadcastInDim S512x512 ![] bcast_S_S512x512 main_cst_26
  let main_v71 : IVec S512x512 1 := cmpf .olt main_v69 main_v70
  let main_c_27 : IVec S_ 1 := constantI S_ 1 1#1
  let main_v72 : IVec S_ 1 := (fun x v => Host.reduce IntOp.andi x v reducesTo_S512x512_S_d0_1 h_S_) main_v71 main_c_27
  let main_v73 : IVec S_ 1 := andi main_v68 main_v72
  let main_v74 : FVec F S512 .f32 := Host.absf main_arg16
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  main_v78

def fn_part3 {F : FTy → Type} [FloatOps F] (main_arg12 : FVec F S512x512 .f32) (main_arg13 : FVec F S512 .f32) (main_arg14 : FVec F S512x512 .f32) (main_arg15 : FVec F S512x512 .f32) (main_arg16 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg12
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg13
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x512 .f32 := Host.absf main_arg14
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg15 main_arg16 main_v63 main_v67

def fn_part2 {F : FTy → Type} [FloatOps F] (main_arg8 : FVec F S512 .f32) (main_arg9 : FVec F S512x512 .f32) (main_arg10 : FVec F S512x512 .f32) (main_arg11 : FVec F S512 .f32) (main_arg12 : FVec F S512x512 .f32) (main_arg13 : FVec F S512 .f32) (main_arg14 : FVec F S512x512 .f32) (main_arg15 : FVec F S512x512 .f32) (main_arg16 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg9
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512x512 .f32 := Host.absf main_arg10
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_arg12 main_arg13 main_arg14 main_arg15 main_arg16 main_v48 main_v49 main_v50

def fn_part1 {F : FTy → Type} [FloatOps F] (main_arg5 : FVec F S512x512 .f32) (main_arg6 : FVec F S512 .f32) (main_arg7 : FVec F S512x512 .f32) (main_arg8 : FVec F S512 .f32) (main_arg9 : FVec F S512x512 .f32) (main_arg10 : FVec F S512x512 .f32) (main_arg11 : FVec F S512 .f32) (main_arg12 : FVec F S512x512 .f32) (main_arg13 : FVec F S512 .f32) (main_arg14 : FVec F S512x512 .f32) (main_arg15 : FVec F S512x512 .f32) (main_arg16 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S20000x512 .f32) (main_arg1 : IVec S2x160000 32) (main_arg2 : FVec F S512x512 .f32) (main_arg3 : FVec F S512 .f32) (main_arg4 : FVec F S512x512 .f32) (main_arg5 : FVec F S512x512 .f32) (main_arg6 : FVec F S512 .f32) (main_arg7 : FVec F S512x512 .f32) (main_arg8 : FVec F S512 .f32) (main_arg9 : FVec F S512x512 .f32) (main_arg10 : FVec F S512x512 .f32) (main_arg11 : FVec F S512 .f32) (main_arg12 : FVec F S512x512 .f32) (main_arg13 : FVec F S512 .f32) (main_arg14 : FVec F S512x512 .f32) (main_arg15 : FVec F S512x512 .f32) (main_arg16 : FVec F S512 .f32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S20000x512 : Shape := ⟨2, ![20000, 512]⟩
abbrev S2x160000 : Shape := ⟨2, ![2, 160000]⟩
abbrev S512x512 : Shape := ⟨2, ![512, 512]⟩
abbrev S512 : Shape := ⟨1, ![512]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S1x512 : Shape := ⟨2, ![1, 512]⟩
abbrev S2000x512 : Shape := ⟨2, ![2000, 512]⟩

abbrev nBuf : Space → Nat
  | .hbm => 78
  | .vmem => 27
  | .smem => 0
  | _ => 0

abbrev bufTy : (tb : Table) → Fin (tcTables nBuf tb) → BufTy
  | .hbm, ⟨0, _⟩ => ⟨S20000x512, .f32⟩
  | .hbm, ⟨1, _⟩ => ⟨S2x160000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S512x512, .f32⟩
  | .hbm, ⟨15, _⟩ => ⟨S512x512, .f32⟩
  | .hbm, ⟨16, _⟩ => ⟨S512, .f32⟩
  | .hbm, ⟨17, _⟩ => ⟨S1x160000, .i32⟩
  | .hbm, ⟨18, _⟩ => ⟨S160000, .i32⟩
  | .hbm, ⟨19, _⟩ => ⟨S1x160000, .i32⟩
  | .hbm, ⟨20, _⟩ => ⟨S160000, .i32⟩
  | .hbm, ⟨21, _⟩ => ⟨S_, .i32⟩
  | .hbm, ⟨22, _⟩ => ⟨S160000, .i32⟩
  | .hbm, ⟨23, _⟩ => ⟨S160000, .i1⟩
  | .hbm, ⟨24, _⟩ => ⟨S_, .i32⟩
  | .hbm, ⟨25, _⟩ => ⟨S160000, .i32⟩
  | .hbm, ⟨26, _⟩ => ⟨S160000, .i32⟩
  | .hbm, ⟨27, _⟩ => ⟨S160000, .i32⟩
  | .hbm, ⟨28, _⟩ => ⟨S160000x1, .i32⟩
  | .hbm, ⟨29, _⟩ => ⟨S160000x512, .f32⟩
  | .hbm, ⟨30, _⟩ => ⟨S_, .f32⟩
  | .hbm, ⟨31, _⟩ => ⟨S20000x512, .f32⟩
  | .hbm, ⟨32, _⟩ => ⟨S160000x1, .i32⟩
  | .hbm, ⟨33, _⟩ => ⟨S20000x512, .f32⟩
  | .hbm, ⟨34, _⟩ => ⟨S512x512, .f32⟩
  | .hbm, ⟨35, _⟩ => ⟨S512x512, .f32⟩
  | .hbm, ⟨36, _⟩ => ⟨S512x512, .f32⟩
  | .hbm, ⟨37, _⟩ => ⟨S512, .f32⟩
  | .hbm, ⟨38, _⟩ => ⟨S1x512, .f32⟩
  | .hbm, ⟨39, _⟩ => ⟨S20000x512, .f32⟩
  | .hbm, ⟨40, _⟩ => ⟨S_, .i32⟩
  | .hbm, ⟨41, _⟩ => ⟨S160000, .i32⟩
  | .hbm, ⟨42, _⟩ => ⟨S160000, .i1⟩
  | .hbm, ⟨43, _⟩ => ⟨S_, .i32⟩
  | .hbm, ⟨44, _⟩ => ⟨S160000, .i32⟩
  | .hbm, ⟨45, _⟩ => ⟨S160000, .i32⟩
  | .hbm, ⟨46, _⟩ => ⟨S160000, .i32⟩
  | .hbm, ⟨47, _⟩ => ⟨S160000x1, .i32⟩
  | .hbm, ⟨48, _⟩ => ⟨S160000x512, .f32⟩
  | .hbm, ⟨49, _⟩ => ⟨S_, .f32⟩
  | .hbm, ⟨50, _⟩ => ⟨S20000x512, .f32⟩
  | .hbm, ⟨51, _⟩ => ⟨S160000x1, .i32⟩
  | .hbm, ⟨52, _⟩ => ⟨S20000x512, .f32⟩
  | .hbm, ⟨53, _⟩ => ⟨S512x512, .f32⟩
  | .hbm, ⟨54, _⟩ => ⟨S512x512, .f32⟩
  | .hbm, ⟨55, _⟩ => ⟨S512x512, .f32⟩
  | .hbm, ⟨56, _⟩ => ⟨S512, .f32⟩
  | .hbm, ⟨57, _⟩ => ⟨S1x512, .f32⟩
  | .hbm, ⟨58, _⟩ => ⟨S20000x512, .f32⟩
  | .hbm, ⟨59, _⟩ => ⟨S_, .i32⟩
  | .hbm, ⟨60, _⟩ => ⟨S160000, .i32⟩
  | .hbm, ⟨61, _⟩ => ⟨S160000, .i1⟩
  | .hbm, ⟨62, _⟩ => ⟨S_, .i32⟩
  | .hbm, ⟨63, _⟩ => ⟨S160000, .i32⟩
  | .hbm, ⟨64, _⟩ => ⟨S160000, .i32⟩
  | .hbm, ⟨65, _⟩ => ⟨S160000, .i32⟩
  | .hbm, ⟨66, _⟩ => ⟨S160000x1, .i32⟩
  | .hbm, ⟨67, _⟩ => ⟨S160000x512, .f32⟩
  | .hbm, ⟨68, _⟩ => ⟨S_, .f32⟩
  | .hbm, ⟨69, _⟩ => ⟨S20000x512, .f32⟩
  | .hbm, ⟨70, _⟩ => ⟨S160000x1, .i32⟩
  | .hbm, ⟨71, _⟩ => ⟨S20000x512, .f32⟩
  | .hbm, ⟨72, _⟩ => ⟨S512x512, .f32⟩
  | .hbm, ⟨73, _⟩ => ⟨S512x512, .f32⟩
  | .hbm, ⟨74, _⟩ => ⟨S512x512, .f32⟩
  | .hbm, ⟨75, _⟩ => ⟨S512, .f32⟩
  | .hbm, ⟨76, _⟩ => ⟨S1x512, .f32⟩
  | .hbm, ⟨77, _⟩ => ⟨S20000x512, .f32⟩
  | .local _ .vmem, ⟨0, _⟩ => ⟨S2000x512, .f32⟩
  | .local _ .vmem, ⟨1, _⟩ => ⟨S2000x512, .f32⟩
  | .local _ .vmem, ⟨2, _⟩ => ⟨S2000x512, .f32⟩
  | .local _ .vmem, ⟨3, _⟩ => ⟨S2000x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S2000x512, .f32⟩
  | .local _ .vmem, ⟨8, _⟩ => ⟨S2000x512, .f32⟩
  | .local _ .vmem, ⟨9, _⟩ => ⟨S2000x512, .f32⟩
  | .local _ .vmem, ⟨10, _⟩ => ⟨S2000x512, .f32⟩
  | .local _ .vmem, ⟨11, _⟩ => ⟨S2000x512, .f32⟩
  | .local _ .vmem, ⟨12, _⟩ => ⟨S2000x512, .f32⟩
  | .local _ .vmem, ⟨13, _⟩ => ⟨S512x512, .f32⟩
  | .local _ .vmem, ⟨14, _⟩ => ⟨S512x512, .f32⟩
  | .local _ .vmem, ⟨15, _⟩ => ⟨S1x512, .f32⟩
  | .local _ .vmem, ⟨16, _⟩ => ⟨S2000x512, .f32⟩
  | .local _ .vmem, ⟨17, _⟩ => ⟨S2000x512, .f32⟩
  | .local _ .vmem, ⟨18, _⟩ => ⟨S2000x512, .f32⟩
  | .local _ .vmem, ⟨19, _⟩ => ⟨S2000x512, .f32⟩
  | .local _ .vmem, ⟨20, _⟩ => ⟨S2000x512, .f32⟩
  | .local _ .vmem, ⟨21, _⟩ => ⟨S2000x512, .f32⟩
  | .local _ .vmem, ⟨22, _⟩ => ⟨S512x512, .f32⟩
  | .local _ .vmem, ⟨23, _⟩ => ⟨S512x512, .f32⟩
  | .local _ .vmem, ⟨24, _⟩ => ⟨S1x512, .f32⟩
  | .local _ .vmem, ⟨25, _⟩ => ⟨S2000x512, .f32⟩
  | .local _ .vmem, ⟨26, _⟩ => ⟨S2000x512, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_1 : Ref sig .tc := ⟨.hbm, 40, rfl⟩
abbrev main_v20 : Ref sig .tc := ⟨.hbm, 41, rfl⟩
abbrev main_v21 : Ref sig .tc := ⟨.hbm, 42, rfl⟩
abbrev main_c_2 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_4 : Ref sig .tc := ⟨.hbm, 59, rfl⟩
abbrev main_v36 : Ref sig .tc := ⟨.hbm, 60, rfl⟩
abbrev main_v37 : Ref sig .tc := ⟨.hbm, 61, rfl⟩
abbrev main_c_5 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_6 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S20000x512 : S_.BroadcastsInDim S20000x512 (![] : Fin 0 → Fin S20000x512.rank)
  transposes_S512x512_S512x512_1_0 : S512x512.Transposes [1, 0] S512x512
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  gather_S20000x512_S160000x1_S160000x512_1_0_n_n_0_1_1512_wf : GatherDims.WF S20000x512 S160000x1 S160000x512 [1] [0] [] [0] [] 1 ![1, 512]
  scatter_S20000x512_S160000x1_S160000x512_1_0_0_1_wf : ScatterDims.WF S20000x512 S160000x1 S160000x512 [1] [0] [0] 1
  dot_S2000x512_S512x512_S2000x512_1_0_0_1_n_n_wf : DotDims.WF S2000x512 S512x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S20000x512.size a
  hwx0_0 : ∀ i : grid0.Coords, EltTy.bits .f32 = 32 ∨ (Rect.block (s := S20000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S20000x512.size a
  hwx0_1 : ∀ i : grid0.Coords, EltTy.bits .f32 = 32 ∨ (Rect.block (s := S20000x512) S2000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x512.size a ≤ S20000x512.size a
  hwx0_5 : ∀ i : grid0.Coords, EltTy.bits .f32 = 32 ∨ (Rect.block (s := S20000x512) S2000x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S20000x512.size a
  hwx1_0 : ∀ i : grid1.Coords, EltTy.bits .f32 = 32 ∨ (Rect.block (s := S20000x512) S2000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x512.size a ≤ S20000x512.size a
  hwx1_1 : ∀ i : grid1.Coords, EltTy.bits .f32 = 32 ∨ (Rect.block (s := S20000x512) S2000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x512.size a ≤ S20000x512.size a
  hwx1_5 : ∀ i : grid1.Coords, EltTy.bits .f32 = 32 ∨ (Rect.block (s := S20000x512) S2000x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S20000x512.size a
  hwx2_0 : ∀ i : grid2.Coords, EltTy.bits .f32 = 32 ∨ (Rect.block (s := S20000x512) S2000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x512.size a ≤ S20000x512.size a
  hwx2_1 : ∀ i : grid2.Coords, EltTy.bits .f32 = 32 ∨ (Rect.block (s := S20000x512) S2000x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .f32 = 32 ∨ (Rect.block (s := S512x512) S512x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .f32 = 32 ∨ (Rect.block (s := S512x512) S512x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x512.size a ≤ S20000x512.size a
  hwx2_5 : ∀ i : grid2.Coords, EltTy.bits .f32 = 32 ∨ (Rect.block (s := S20000x512) S2000x512.size (cc2_transform_5 i) (hinb2_5 i)).WholeWords (EltTy.packing .f32)

variable [Facts₀]

def gather_S20000x512_S160000x1_S160000x512_1_0_n_n_0_1_1512 : GatherDims S20000x512 S160000x1 S160000x512 where
  offsetDims := [1]
  collapsedSliceDims := [0]
  operandBatchingDims := []
  startIndicesBatchingDims := []
  startIndexMap := [0]
  indexVectorDim := 1
  sliceSizes := ![1, 512]
  wf := gather_S20000x512_S160000x1_S160000x512_1_0_n_n_0_1_1512_wf
def scatter_S20000x512_S160000x1_S160000x512_1_0_0_1 : ScatterDims S20000x512 S160000x1 S160000x512 where
  updateWindowDims := [1]
  insertedWindowDims := [0]
  scatterDimsToOperandDims := [0]
  indexVectorDim := 1
  wf := scatter_S20000x512_S160000x1_S160000x512_1_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf

abbrev win0_0 : Pipeline.Window sig grid0 :=
  Pipeline.Window.ofSpec (Memref.whole main_v13) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S2000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v29) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S2000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S2000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S2000x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S2000x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S20000x512 : Shape := ⟨2, ![20000, 512]⟩
abbrev S2x160000 : Shape := ⟨2, ![2, 160000]⟩
abbrev S512x512 : Shape := ⟨2, ![512, 512]⟩
abbrev S512 : Shape := ⟨1, ![512]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S1x512 : Shape := ⟨2, ![1, 512]⟩

abbrev nBuf : Space → Nat
  | .hbm => 108
  | .vmem => 0
  | .smem => 0
  | _ => 0

abbrev bufTy : (tb : Table) → Fin (tcTables nBuf tb) → BufTy
  | .hbm, ⟨0, _⟩ => ⟨S20000x512, .f32⟩
  | .hbm, ⟨1, _⟩ => ⟨S2x160000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S512x512, .f32⟩
  | .hbm, ⟨15, _⟩ => ⟨S512x512, .f32⟩
  | .hbm, ⟨16, _⟩ => ⟨S512, .f32⟩
  | .hbm, ⟨17, _⟩ => ⟨S1x160000, .i32⟩
  | .hbm, ⟨18, _⟩ => ⟨S160000, .i32⟩
  | .hbm, ⟨19, _⟩ => ⟨S1x160000, .i32⟩
  | .hbm, ⟨20, _⟩ => ⟨S160000, .i32⟩
  | .hbm, ⟨21, _⟩ => ⟨S_, .i32⟩
  | .hbm, ⟨22, _⟩ => ⟨S160000, .i32⟩
  | .hbm, ⟨23, _⟩ => ⟨S160000, .i1⟩
  | .hbm, ⟨24, _⟩ => ⟨S_, .i32⟩
  | .hbm, ⟨25, _⟩ => ⟨S160000, .i32⟩
  | .hbm, ⟨26, _⟩ => ⟨S160000, .i32⟩
  | .hbm, ⟨27, _⟩ => ⟨S160000, .i32⟩
  | .hbm, ⟨28, _⟩ => ⟨S160000x1, .i32⟩
  | .hbm, ⟨29, _⟩ => ⟨S160000x512, .f32⟩
  | .hbm, ⟨30, _⟩ => ⟨S_, .f32⟩
  | .hbm, ⟨31, _⟩ => ⟨S20000x512, .f32⟩
  | .hbm, ⟨32, _⟩ => ⟨S160000x1, .i32⟩
  | .hbm, ⟨33, _⟩ => ⟨S20000x512, .f32⟩
  | .hbm, ⟨34, _⟩ => ⟨S512x512, .f32⟩
  | .hbm, ⟨35, _⟩ => ⟨S20000x512, .f32⟩
  | .hbm, ⟨36, _⟩ => ⟨S1x512, .f32⟩
  | .hbm, ⟨37, _⟩ => ⟨S20000x512, .f32⟩
  | .hbm, ⟨38, _⟩ => ⟨S20000x512, .f32⟩
  | .hbm, ⟨39, _⟩ => ⟨S512x512, .f32⟩
  | .hbm, ⟨40, _⟩ => ⟨S20000x512, .f32⟩
  | .hbm, ⟨41, _⟩ => ⟨S20000x512, .f32⟩
  | .hbm, ⟨42, _⟩ => ⟨S512x512, .f32⟩
  | .hbm, ⟨43, _⟩ => ⟨S20000x512, .f32⟩
  | .hbm, ⟨44, _⟩ => ⟨S1x512, .f32⟩
  | .hbm, ⟨45, _⟩ => ⟨S20000x512, .f32⟩
  | .hbm, ⟨46, _⟩ => ⟨S20000x512, .f32⟩
  | .hbm, ⟨47, _⟩ => ⟨S20000x512, .f32⟩
  | .hbm, ⟨48, _⟩ => ⟨S_, .f32⟩
  | .hbm, ⟨49, _⟩ => ⟨S20000x512, .f32⟩
  | .hbm, ⟨50, _⟩ => ⟨S20000x512, .f32⟩
  | .hbm, ⟨51, _⟩ => ⟨S_, .i32⟩
  | .hbm, ⟨52, _⟩ => ⟨S160000, .i32⟩
  | .hbm, ⟨53, _⟩ => ⟨S160000, .i1⟩
  | .hbm, ⟨54, _⟩ => ⟨S_, .i32⟩
  | .hbm, ⟨55, _⟩ => ⟨S160000, .i32⟩
  | .hbm, ⟨56, _⟩ => ⟨S160000, .i32⟩
  | .hbm, ⟨57, _⟩ => ⟨S160000, .i32⟩
  | .hbm, ⟨58, _⟩ => ⟨S160000x1, .i32⟩
  | .hbm, ⟨59, _⟩ => ⟨S160000x512, .f32⟩
  | .hbm, ⟨60, _⟩ => ⟨S_, .f32⟩
  | .hbm, ⟨61, _⟩ => ⟨S20000x512, .f32⟩
  | .hbm, ⟨62, _⟩ => ⟨S160000x1, .i32⟩
  | .hbm, ⟨63, _⟩ => ⟨S20000x512, .f32⟩
  | .hbm, ⟨64, _⟩ => ⟨S512x512, .f32⟩
  | .hbm, ⟨65, _⟩ => ⟨S20000x512, .f32⟩
  | .hbm, ⟨66, _⟩ => ⟨S1x512, .f32⟩
  | .hbm, ⟨67, _⟩ => ⟨S20000x512, .f32⟩
  | .hbm, ⟨68, _⟩ => ⟨S20000x512, .f32⟩
  | .hbm, ⟨69, _⟩ => ⟨S512x512, .f32⟩
  | .hbm, ⟨70, _⟩ => ⟨S20000x512, .f32⟩
  | .hbm, ⟨71, _⟩ => ⟨S20000x512, .f32⟩
  | .hbm, ⟨72, _⟩ => ⟨S512x512, .f32⟩
  | .hbm, ⟨73, _⟩ => ⟨S20000x512, .f32⟩
  | .hbm, ⟨74, _⟩ => ⟨S1x512, .f32⟩
  | .hbm, ⟨75, _⟩ => ⟨S20000x512, .f32⟩
  | .hbm, ⟨76, _⟩ => ⟨S20000x512, .f32⟩
  | .hbm, ⟨77, _⟩ => ⟨S20000x512, .f32⟩
  | .hbm, ⟨78, _⟩ => ⟨S_, .f32⟩
  | .hbm, ⟨79, _⟩ => ⟨S20000x512, .f32⟩
  | .hbm, ⟨80, _⟩ => ⟨S20000x512, .f32⟩
  | .hbm, ⟨81, _⟩ => ⟨S_, .i32⟩
  | .hbm, ⟨82, _⟩ => ⟨S160000, .i32⟩
  | .hbm, ⟨83, _⟩ => ⟨S160000, .i1⟩
  | .hbm, ⟨84, _⟩ => ⟨S_, .i32⟩
  | .hbm, ⟨85, _⟩ => ⟨S160000, .i32⟩
  | .hbm, ⟨86, _⟩ => ⟨S160000, .i32⟩
  | .hbm, ⟨87, _⟩ => ⟨S160000, .i32⟩
  | .hbm, ⟨88, _⟩ => ⟨S160000x1, .i32⟩
  | .hbm, ⟨89, _⟩ => ⟨S160000x512, .f32⟩
  | .hbm, ⟨90, _⟩ => ⟨S_, .f32⟩
  | .hbm, ⟨91, _⟩ => ⟨S20000x512, .f32⟩
  | .hbm, ⟨92, _⟩ => ⟨S160000x1, .i32⟩
  | .hbm, ⟨93, _⟩ => ⟨S20000x512, .f32⟩
  | .hbm, ⟨94, _⟩ => ⟨S512x512, .f32⟩
  | .hbm, ⟨95, _⟩ => ⟨S20000x512, .f32⟩
  | .hbm, ⟨96, _⟩ => ⟨S1x512, .f32⟩
  | .hbm, ⟨97, _⟩ => ⟨S20000x512, .f32⟩
  | .hbm, ⟨98, _⟩ => ⟨S20000x512, .f32⟩
  | .hbm, ⟨99, _⟩ => ⟨S512x512, .f32⟩
  | .hbm, ⟨100, _⟩ => ⟨S20000x512, .f32⟩
  | .hbm, ⟨101, _⟩ => ⟨S20000x512, .f32⟩
  | .hbm, ⟨102, _⟩ => ⟨S512x512, .f32⟩
  | .hbm, ⟨103, _⟩ => ⟨S20000x512, .f32⟩
  | .hbm, ⟨104, _⟩ => ⟨S1x512, .f32⟩
  | .hbm, ⟨105, _⟩ => ⟨S20000x512, .f32⟩
  | .hbm, ⟨106, _⟩ => ⟨S20000x512, .f32⟩
  | .hbm, ⟨107, _⟩ => ⟨S20000x512, .f32⟩
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call0_cst : Ref sig .tc := ⟨.hbm, 48, rfl⟩
abbrev main_call0_v0 : Ref sig .tc := ⟨.hbm, 49, rfl⟩
abbrev main_v28 : Ref sig .tc := ⟨.hbm, 50, rfl⟩
abbrev main_c_1 : Ref sig .tc := ⟨.hbm, 51, rfl⟩
abbrev main_v29 : Ref sig .tc := ⟨.hbm, 52, rfl⟩
abbrev main_v30 : Ref sig .tc := ⟨.hbm, 53, rfl⟩
abbrev main_c_2 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_3 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_v53 : Ref sig .tc := ⟨.hbm, 80, rfl⟩
abbrev main_c_4 : Ref sig .tc := ⟨.hbm, 81, rfl⟩
abbrev main_v54 : Ref sig .tc := ⟨.hbm, 82, rfl⟩
abbrev main_v55 : Ref sig .tc := ⟨.hbm, 83, rfl⟩
abbrev main_c_5 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_6 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S20000x512 : S_.BroadcastsInDim S20000x512 (![] : Fin 0 → Fin S20000x512.rank)
  transposes_S512x512_S512x512_1_0 : S512x512.Transposes [1, 0] S512x512
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  gather_S20000x512_S160000x1_S160000x512_1_0_n_n_0_1_1512_wf : GatherDims.WF S20000x512 S160000x1 S160000x512 [1] [0] [] [0] [] 1 ![1, 512]
  scatter_S20000x512_S160000x1_S160000x512_1_0_0_1_wf : ScatterDims.WF S20000x512 S160000x1 S160000x512 [1] [0] [0] 1
  dot_S20000x512_S512x512_S20000x512_1_0_0_1_n_n_wf : DotDims.WF S20000x512 S512x512 S20000x512 [1] [0] [0] [1] [] []

variable [Facts₀]

def gather_S20000x512_S160000x1_S160000x512_1_0_n_n_0_1_1512 : GatherDims S20000x512 S160000x1 S160000x512 where
  offsetDims := [1]
  collapsedSliceDims := [0]
  operandBatchingDims := []
  startIndicesBatchingDims := []
  startIndexMap := [0]
  indexVectorDim := 1
  sliceSizes := ![1, 512]
  wf := gather_S20000x512_S160000x1_S160000x512_1_0_n_n_0_1_1512_wf
def scatter_S20000x512_S160000x1_S160000x512_1_0_0_1 : ScatterDims S20000x512 S160000x1 S160000x512 where
  updateWindowDims := [1]
  insertedWindowDims := [0]
  scatterDimsToOperandDims := [0]
  indexVectorDim := 1
  wf := scatter_S20000x512_S160000x1_S160000x512_1_0_0_1_wf
def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf

class Facts : Prop extends Facts₀ where

variable [Facts]
-- ==== Proof.KernelRun.lean ====
/-
  The idealized kernel's run with its final memory named.

  From any launch memory with zero counters, every weakly fair execution of the kernel program's @main terminates
  without a fault, and in the final state every buffer that is not scoped to a region holds what the fold `W6`
  through @main's six segments (three stretches of host operations, three launches) says it holds.  The frame claim
  keeps, of this, only the argument arrays; the value claim also needs the result buffer, so the run is stated here
  once with the whole final valuation and both are read off it.  The proof is the launch theorem for a program of
  several regions, applied to the segments, the chain of thread states and the proof data of the frame certificate.
-/
import proofs.«150026_j60559038874107_2_alg».proof.Proof.Gen.KernelIdeal.Frame

noncomputable section

namespace Cert.GraphConv.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer at the fold's contents. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The same run, read at the result buffer and at the argument arrays: the result holds what the fold leaves there,
    and no segment writes an argument. -/
theorem run_result : θ_run defs (onTc (τ := τ) (main (F := F))) ⟨m, fun _ => 0, ρ⟩ (fun r => ∀ c : Dev nD,
      r.2.mem ((c.tc : Thread nD τ).loc main_v51) = W6 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨h c _ (mem_uc main_v51 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c),
     (h c _ (mem_uc main_arg14 (by decide))).trans (W6_main_arg14 m ρ c),
     (h c _ (mem_uc main_arg15 (by decide))).trans (W6_main_arg15 m ρ c),
     (h c _ (mem_uc main_arg16 (by decide))).trans (W6_main_arg16 m ρ c)⟩)
    (run_held m ρ)

end Cert.GraphConv.KernelRun

end
-- ==== Proof.Spec.lean ====
/-
  Three stacked graph-convolution layers over the extended reals, in the two arrangements the programs compute.

  A layer takes node features X (20000 nodes, 512 channels), the neighbour sums A of those features (one row per
  node: the sum of the rows of X over the node's incoming edges), three weight matrices W_rel, W_root, W_lin
  (each [out, in] = [512, 512]) and two biases b_rel, b_lin, and gives at node r, channel c

      act ( A[r,·]·W_rel[c,·] + b_rel[c] + X[r,·]·W_root[c,·] + X[r,·]·W_lin[c,·] + b_lin[c] ).

  The SPLIT arrangement computes the three inner products separately and adds the biases where they stand:
      ((A·W_rel + b_rel) + X·W_root) + (X·W_lin + b_lin).
  The FUSED arrangement first adds the two matrices that multiply X, and the two biases:
      (A·W_rel + X·(W_root + W_lin)) + (b_rel + b_lin).
  The TILE form is the fused arrangement as one launch finds it: the two matrices already transposed to [in, out]
  (P = W_relᵀ, Q = (W_root + W_lin)ᵀ) and the bias sum laid out as a row [1, 512].

  The network is three layers; the first two are followed by max(·, 0), the last by nothing; each layer's
  neighbour sums are taken of that layer's input by one and the same function `agg`, which the algebra never opens.
-/
import Idealize.ShloMosaic.Lib.ValueIdx
import Idealize.ShloMosaic.PureOps.Ideal

noncomputable section

namespace Cert.GraphConv

open Idealize.ShloMosaic Idealize.ShloMosaic.ValueIdx

/-- Node features: 20000 nodes, 512 channels. -/
abbrev SN : Shape := ⟨2, ![20000, 512]⟩
/-- A weight matrix. -/
abbrev SW : Shape := ⟨2, ![512, 512]⟩
/-- A bias. -/
abbrev SB : Shape := ⟨1, ![512]⟩
/-- A bias laid out as a row. -/
abbrev SR : Shape := ⟨2, ![1, 512]⟩

/-- The rectifier on the extended reals. -/
def relu (x : EReal) : EReal := max x 0

/-- Row `r` of `X` against row `c` of `W`. -/
def rowDot (X : SN.Idx → EReal) (W : SW.Idx → EReal) (r : Fin 20000) (c : Fin 512) : EReal :=
  ∑ k : Fin 512, X (ix2 r k) * W (ix2 c k)

/-- What one launch computes at node `r`, channel `c`, before the activation: the neighbour sums against `P`, the
    features against `Q` (both [in, out]), and the bias row. -/
def tilePre (A X : SN.Idx → EReal) (P Q : SW.Idx → EReal) (b : SR.Idx → EReal) (r : Fin 20000) (c : Fin 512) : EReal :=
  ((∑ k : Fin 512, A (ix2 r k) * P (ix2 k c)) + ∑ k : Fin 512, X (ix2 r k) * Q (ix2 k c)) + b (ix2 (0 : Fin 1) c)

/-- The array one launch leaves. -/
def tile (act : EReal → EReal) (A X : SN.Idx → EReal) (P Q : SW.Idx → EReal) (b : SR.Idx → EReal) : SN.Idx → EReal :=
  fun i => act (tilePre A X P Q b (i 0) (i 1))

theorem tile_ix2 (act : EReal → EReal) (A X : SN.Idx → EReal) (P Q : SW.Idx → EReal) (b : SR.Idx → EReal)
    (r : Fin 20000) (c : Fin 512) : tile act A X P Q b (ix2 r c) = act (tilePre A X P Q b r c) := rfl

/-- One layer's parameters. -/
structure Params where
  wrel : SW.Idx → EReal
  brel : SB.Idx → EReal
  wroot : SW.Idx → EReal
  wlin : SW.Idx → EReal
  blin : SB.Idx → EReal

/-- The fused arrangement at node `r`, channel `c`, before the activation. -/
def fusedPre (p : Params) (A X : SN.Idx → EReal) (r : Fin 20000) (c : Fin 512) : EReal :=
  (rowDot A p.wrel r c + ∑ k : Fin 512, X (ix2 r k) * (p.wroot (ix2 c k) + p.wlin (ix2 c k)))
    + (p.brel (ix1 c) + p.blin (ix1 c))

/-- The split arrangement at node `r`, channel `c`, before the activation. -/
def splitPre (p : Params) (A X : SN.Idx → EReal) (r : Fin 20000) (c : Fin 512) : EReal :=
  ((rowDot A p.wrel r c + p.brel (ix1 c)) + rowDot X p.wroot r c) + (rowDot X p.wlin r c + p.blin (ix1 c))

/-- A layer in the fused arrangement. -/
def fused (act : EReal → EReal) (p : Params) (A X : SN.Idx → EReal) : SN.Idx → EReal :=
  fun i => act (fusedPre p A X (i 0) (i 1))

/-- A layer in the split arrangement. -/
def split (act : EReal → EReal) (p : Params) (A X : SN.Idx → EReal) : SN.Idx → EReal :=
  fun i => act (splitPre p A X (i 0) (i 1))

/-- Three layers, each fed its input and that input's neighbour sums; the rectifier after the first two. -/
def net (layer : (EReal → EReal) → Params → (SN.Idx → EReal) → (SN.Idx → EReal) → SN.Idx → EReal)
    (agg : (SN.Idx → EReal) → SN.Idx → EReal) (p1 p2 p3 : Params) (X : SN.Idx → EReal) : SN.Idx → EReal :=
  let X1 := layer relu p1 (agg X) X
  let X2 := layer relu p2 (agg X1) X1
  layer id p3 (agg X2) X2

end Cert.GraphConv

end
-- ==== Proof.LibRealLaw.lean ====
/-
  Extended reals that are real numbers, and the one law this certificate rests on.

  Both programs score a user against every point of interest by the inner product of the user's preference
  vector `u` (256 entries) with the point's region embedding `r`, scaled by `a`.  One program scales the
  preference vector first and then takes the inner product, `∑ k, (u k * a) * r k`; the other takes the inner
  product and scales the result, `a * ∑ k, u k * r k`.  On the extended reals a factor moves across a sum only
  when no term is infinite, so the law is stated for entries that are real numbers; it is then the ring identity
  `∑ k, (u k * a) * r k = a * ∑ k, u k * r k` in `ℝ`.

  The rest of the file says which operations keep an extended real a real number: products, sums over a finite
  index set, maxima, and the ideal quotient by a divisor that is at least one.
-/
import Idealize.ShloMosaic.PureOps.Ideal
import Idealize.ShloMosaic.PureOps.Ideal.Laws

noncomputable section

namespace Cert.Scores

open Idealize.ShloMosaic

/-- The extended real `x` is a real number (neither infinity). -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- The maximum of a real number and one is a real number that is not zero. -/
theorem max_one_eq (s : ℝ) : max (s : EReal) 1 = ((max s 1 : ℝ) : EReal) := by
  have h := (EReal.coe_strictMono.monotone).map_max (a := s) (b := (1 : ℝ))
  rw [h]; rfl

/-- The ideal quotient of a real number by the maximum of a real number and one is a real number: the divisor is
    a real number at least one, so it is not zero and the quotient is the product with its reciprocal. -/
theorem IsReal.div_max_one {x s : EReal} (hx : IsReal x) (hs : IsReal s) : IsReal (Ideal.div x (max s 1)) := by
  obtain ⟨s', rfl⟩ := hs
  rw [max_one_eq, Ideal.div_coe (ne_of_gt (lt_of_lt_of_le one_pos (le_max_right s' 1)))]
  exact hx.mul (isReal_coe _)

/-- THE LAW.  For real entries, scaling the first factor of every product by `a` scales the inner product by `a`. -/
theorem scaled_inner {n : Nat} (u r : Fin n → EReal) (a : EReal)
    (hu : ∀ k, IsReal (u k)) (hr : ∀ k, IsReal (r k)) (ha : IsReal a) :
    ∑ k : Fin n, (u k * a) * r k = a * ∑ k : Fin n, u k * r k := by
  choose u' hu' using hu
  choose r' hr' using hr
  obtain ⟨a', rfl⟩ := ha
  have hl : ∀ k : Fin n, (u k * (a' : EReal)) * r k = ((u' k * a' * r' k : ℝ) : EReal) := fun k => by
    rw [hu' k, hr' k, EReal.coe_mul, EReal.coe_mul]
  have hr2 : ∀ k : Fin n, u k * r k = ((u' k * r' k : ℝ) : EReal) := fun k => by
    rw [hu' k, hr' k, EReal.coe_mul]
  rw [Finset.sum_congr rfl fun k _ => hl k, Finset.sum_congr rfl fun k _ => hr2 k, ← coe_sum, ← coe_sum,
    ← EReal.coe_mul, Finset.mul_sum]
  exact congrArg _ (Finset.sum_congr rfl fun k _ => by ring)

end Cert.Scores

end
-- ==== Proof.Layers.lean ====
/-
  The fused and the split arrangement of a layer are one function on real inputs, and so are the two networks.

  The two arrangements differ by one law, used once per layer and inner-product term:
      x · (a + b) = x · a + x · b,
  with x an entry of the layer's input X and a, b the entries of W_root and W_lin it meets.  On the extended reals the
  law holds when the three are real numbers (it fails at infinities: ∞ · (1 + (−1)) = 0 but ∞ · 1 + ∞ · (−1) = −∞),
  so the layer equation asks that X, W_root and W_lin be real.  Everything else — splitting a sum of sums, and
  re-associating the five summands — holds in any commutative monoid and asks nothing.

  The first layer's input is real because the inputs are.  For the later layers the input is the previous layer's
  output, so the induction also carries that a layer's output is real when everything it is computed from is:
  sums and products of reals are real, and so is the maximum with zero.  The neighbour sums enter only through
  the hypothesis that they are real when the features are.
-/
import proofs.«150026_j60559038874107_2_alg».proof.Proof.Spec
import proofs.«150026_j60559038874107_2_alg».proof.Proof.LibRealLaw

noncomputable section

namespace Cert.GraphConv

open Idealize.ShloMosaic Idealize.ShloMosaic.ValueIdx Cert.Scores

/-- Every entry of the array is a real number. -/
def AllReal {s : Shape} (X : s.Idx → EReal) : Prop := ∀ i, IsReal (X i)

/-- Every parameter of the layer is real. -/
structure Params.Real (p : Params) : Prop where
  wrel : AllReal p.wrel
  brel : AllReal p.brel
  wroot : AllReal p.wroot
  wlin : AllReal p.wlin
  blin : AllReal p.blin

theorem isReal_relu {x : EReal} (h : IsReal x) : IsReal (relu x) := by
  obtain ⟨a, rfl⟩ := h
  refine ⟨max a 0, ?_⟩
  unfold relu
  have h := (EReal.coe_strictMono.monotone).map_max (a := a) (b := (0 : ℝ))
  rw [h]; rfl

theorem isReal_id {x : EReal} (h : IsReal x) : IsReal (id x) := h

theorem rowDot_real {X : SN.Idx → EReal} {W : SW.Idx → EReal} (hX : AllReal X) (hW : AllReal W) (r : Fin 20000) (c : Fin 512) :
    IsReal (rowDot X W r c) :=
  IsReal.sum _ fun k => (hX _).mul (hW _)

/-- THE LAW, summed over the channel: the features against the sum of two matrices is the sum of the features
    against each. -/
theorem rowDot_add {X : SN.Idx → EReal} {U W : SW.Idx → EReal} (hX : AllReal X) (hU : AllReal U) (hW : AllReal W)
    (r : Fin 20000) (c : Fin 512) :
    (∑ k : Fin 512, X (ix2 r k) * (U (ix2 c k) + W (ix2 c k))) = rowDot X U r c + rowDot X W r c := by
  unfold rowDot
  rw [← Finset.sum_add_distrib]
  refine Finset.sum_congr rfl fun k _ => ?_
  obtain ⟨x, hx⟩ := hX (ix2 r k)
  obtain ⟨a, ha⟩ := hU (ix2 c k)
  obtain ⟨b, hb⟩ := hW (ix2 c k)
  rw [hx, ha, hb, ← EReal.coe_add, ← EReal.coe_mul, ← EReal.coe_mul, ← EReal.coe_mul, ← EReal.coe_add, mul_add]

/-- A layer in the fused arrangement is the layer in the split arrangement, on real features and real matrices
    against the features. -/
theorem fused_eq_split (act : EReal → EReal) (p : Params) (A X : SN.Idx → EReal)
    (hX : AllReal X) (hroot : AllReal p.wroot) (hlin : AllReal p.wlin) : fused act p A X = split act p A X := by
  funext i
  obtain ⟨r, c, rfl⟩ : ∃ (r : Fin 20000) (c : Fin 512), i = ix2 r c := ⟨i 0, i 1, eq_ix2 i⟩
  show act (fusedPre p A X r c) = act (splitPre p A X r c)
  refine congrArg act ?_
  unfold fusedPre splitPre
  rw [rowDot_add hX hroot hlin]
  abel

/-- A layer's output is real when its parameters, its features and their neighbour sums are. -/
theorem split_real (act : EReal → EReal) (hact : ∀ x, IsReal x → IsReal (act x)) (p : Params) (hp : p.Real)
    (A X : SN.Idx → EReal) (hA : AllReal A) (hX : AllReal X) : AllReal (split act p A X) := fun i =>
  hact _ ((((rowDot_real hA hp.wrel _ _).add (hp.brel _)).add (rowDot_real hX hp.wroot _ _)).add
    ((rowDot_real hX hp.wlin _ _).add (hp.blin _)))

/-- The network in the fused arrangement is the network in the split arrangement, on real inputs, for any
    neighbour-sum function that keeps real features real. -/
theorem net_eq (agg : (SN.Idx → EReal) → SN.Idx → EReal) (hagg : ∀ X, AllReal X → AllReal (agg X))
    (p1 p2 p3 : Params) (h1 : p1.Real) (h2 : p2.Real) (h3 : p3.Real) (X : SN.Idx → EReal) (hX : AllReal X) :
    net fused agg p1 p2 p3 X = net split agg p1 p2 p3 X := by
  unfold net
  dsimp only
  have e1 : fused relu p1 (agg X) X = split relu p1 (agg X) X := fused_eq_split relu p1 (agg X) X hX h1.wroot h1.wlin
  have r1 : AllReal (split relu p1 (agg X) X) :=
    split_real relu (fun _ => isReal_relu) p1 h1 (agg X) X (hagg X hX) hX
  rw [e1]
  generalize split relu p1 (agg X) X = X1 at r1 ⊢
  have e2 : fused relu p2 (agg X1) X1 = split relu p2 (agg X1) X1 := fused_eq_split relu p2 (agg X1) X1 r1 h2.wroot h2.wlin
  have r2 : AllReal (split relu p2 (agg X1) X1) :=
    split_real relu (fun _ => isReal_relu) p2 h2 (agg X1) X1 (hagg X1 r1) r1
  rw [e2]
  generalize split relu p2 (agg X1) X1 = X2 at r2 ⊢
  exact fused_eq_split id p3 (agg X2) X2 r2 h3.wroot h3.wlin

end Cert.GraphConv

end
-- ==== Proof.LibEdgeIndex.lean ====
/-
  Gathers and accumulating scatters whose index array is a column [E, 1] of row numbers, read at an index.

  An index column `idx : [E, 1]` names one row per entry `e` (an edge).  Two readings of it occur:

  * a GATHER takes, for entry `e`, the row `idx[e, 0]` of a table with `N` rows — read signed and clamped into
    `[0, N - 1]` (`rowOf`).  From a vector `[N]` the result is `[E]`, its entry `e` the table at that row; from a
    matrix `[N, D]` the result is `[E, D]`, its entry `(e, j)` the table at that row and column `j`.
  * an ACCUMULATING SCATTER adds, for entry `e`, an update into row `idx[e, 0]` of the operand — read signed and
    NOT clamped: an update whose row is outside `[0, N - 1]` is dropped.  Entry `e` lands on row `n` exactly when
    `idx[e, 0] = n` as integers (`lands`).  Over the extended reals the result at row `n` is the operand there plus
    the sum over the entries that land on `n` of their updates; into a matrix `[N, D]` from updates `[E, D]` the
    update `(e, j')` lands on `(n, j)` exactly when `e` lands on `n` and `j' = j`, so column `j` of the result
    collects column `j` of the updates.

  Stated for any extents, over the dimension records with these dimension numbers; a printed record with the same
  numbers is such a record by unfolding.
-/
import Idealize.ShloMosaic.Lib.ValueIdx
import Idealize.ShloMosaic.PureOps.Ideal
import Idealize.ShloMosaic.PureOps.Ideal.Laws

noncomputable section

namespace Cert.EdgeIndex

open Idealize.ShloMosaic Idealize.ShloMosaic.ValueIdx

variable {α : Type} {N E D w : ℕ}

/-- A sum over a rank-1 index set is the sum over its coordinate. -/
def idxEquiv1 {n : ℕ} : (⟨1, ![n]⟩ : Shape).Idx ≃ Fin n where
  toFun i := i 0
  invFun a := ix1 a
  left_inv i := (eq_ix1 i).symm
  right_inv _ := rfl

theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The index column's entry for `e`. -/
abbrev at0 (e : Fin E) : (⟨2, ![E, 1]⟩ : Shape).Idx := ix2 e (0 : Fin 1)

/-- The row a gather reads for entry `e`: the column's word read signed, clamped into `[0, N - 1]`. -/
def rowOf (hN : 0 < N) (idx : IVec ⟨2, ![E, 1]⟩ w) (e : Fin E) : Fin N :=
  ⟨min (idx (at0 e)).toInt.toNat (N - 1), by omega⟩

/-- Entry `e` of the index column names row `n`, as integers, with no clamping. -/
def lands (idx : IVec ⟨2, ![E, 1]⟩ w) (e : Fin E) (n : Fin N) : Prop := (idx (at0 e)).toInt = (n.val : Int)

instance (idx : IVec ⟨2, ![E, 1]⟩ w) (e : Fin E) (n : Fin N) : Decidable (lands idx e n) := by
  unfold lands; infer_instance

/-! ## Gathers -/

/-- The dimension numbers of `vector[idx]`: one collapsed axis, the index vector on the column's second axis. -/
abbrev vecGather (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- `vector[idx]` at entry `e`: the vector at the clamped row. -/
theorem vecGather_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (rowOf hN idx e)) := by
  unfold Host.gather
  congr 1
  funext a
  obtain rfl : a = 0 := Subsingleton.elim _ _
  refine Fin.ext ?_
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = at0 e := by
    funext b; refine Fin.ext ?_
    match b with
    | ⟨0, _⟩ => rfl
    | ⟨1, _⟩ => rfl
  rw [hsi]
  rfl

/-- The dimension numbers of `matrix[idx]` (whole rows): the row axis collapsed, the column axis an offset axis. -/
abbrev rowGather (N D E : ℕ) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- `matrix[idx]` at entry `(e, j)`: the matrix at the clamped row, column `j`. -/
theorem rowGather_apply (hN : 0 < N) (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGather N D E wf) x idx (ix2 e j) = x (ix2 (rowOf hN idx e) j) := by
  unfold Host.gather
  congr 1
  have h0 : ((rowGather N D E wf).operandIdx (ix2 e j) idx (0 : Fin 2)).val = (rowOf hN idx e).val := by
    show (rowGather N D E wf).start (ix2 e j) idx (0 : Fin 2) + (rowGather N D E wf).batchCoord (ix2 e j) (0 : Fin 2)
      + (rowGather N D E wf).offCoord (ix2 e j) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N D E wf).startIndexMap from List.mem_singleton.mpr rfl)]
    have hsi : (rowGather N D E wf).siIdx (ix2 e j) ⟨List.idxOf (0 : Fin 2) (rowGather N D E wf).startIndexMap,
        List.idxOf_lt_length_iff.2 (List.mem_singleton.mpr rfl)⟩ = at0 e := by
      funext b; refine Fin.ext ?_
      match b with
      | ⟨0, _⟩ => rfl
      | ⟨1, _⟩ => rfl
    rw [hsi]
    rfl
  have h1 : ((rowGather N D E wf).operandIdx (ix2 e j) idx (1 : Fin 2)).val = j.val := by
    show (rowGather N D E wf).start (ix2 e j) idx (1 : Fin 2) + (rowGather N D E wf).batchCoord (ix2 e j) (1 : Fin 2)
      + (rowGather N D E wf).offCoord (ix2 e j) (1 : Fin 2) = _
    rw [GatherDims.batchCoord_eq_zero _ _ _ List.not_mem_nil]
    have hs : (rowGather N D E wf).start (ix2 e j) idx (1 : Fin 2) = 0 := by
      unfold GatherDims.start
      split
      · rename_i h
        exact ((by decide : ¬ (1 : Fin 2) ∈ ([0] : List (Fin 2))) h).elim
      · rfl
    have ho : (rowGather N D E wf).offCoord (ix2 e j) (1 : Fin 2) = j.val := by
      unfold GatherDims.offCoord
      split
      · rfl
      · rename_i h
        exact absurd ((GatherDims.mem_sKept _ _).mpr
          ⟨fun hh => absurd (hh : (1 : Fin 2) ∈ ([0] : List (Fin 2))) (by decide), List.not_mem_nil⟩) h
    rw [hs, ho, Nat.add_zero, Nat.zero_add]
  funext a
  refine Fin.ext ?_
  match a with
  | ⟨0, _⟩ => exact h0
  | ⟨1, _⟩ => exact h1

/-! ## Accumulating scatters -/

/-- An update lands on the operand index `i` exactly when, on every axis, its start plus its window coordinate is
    `i`'s coordinate. -/
theorem resultIdx?_eq_some_iff {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hb
      have hf := Option.some.inj h
      intro a
      have ha := congrArg (fun f => ((f a).val : Int)) hf
      have hb' := (hb a).1
      simp only [Int.toNat_of_nonneg hb'] at ha
      exact ha
    · cases h
  · intro h
    have hb : ∀ a, 0 ≤ d.start j idx a + (d.window j a : Int) ∧ d.start j idx a + (d.window j a : Int) < s.size a := fun a => by
      rw [h a]
      exact ⟨Int.natCast_nonneg _, by exact_mod_cast (i a).isLt⟩
    rw [dif_pos hb]
    congr 1
    funext a
    apply Fin.ext
    show (d.start j idx a + (d.window j a : Int)).toNat = (i a).val
    rw [h a, Int.toNat_natCast]

/-- An operand axis carries a window coordinate exactly when it is not an inserted axis. -/
theorem mem_sKept_iff {s si u : Shape} (d : ScatterDims s si u) (a : Fin s.rank) : a ∈ d.sKept ↔ a ∉ d.insertedWindowDims := by
  simp [ScatterDims.sKept, Shape.kept, List.mem_filter, List.mem_finRange]

/-- The dimension numbers of `vector.at[idx].add(updates)`. -/
abbrev vecScatter (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem vecScatter_lands (wf : ScatterDims.WF ⟨1, ![N]⟩ ⟨2, ![E, 1]⟩ ⟨1, ![E]⟩ [] [0] [0] 1)
    (idx : IVec ⟨2, ![E, 1]⟩ w) (e : Fin E) (n : Fin N) :
    (vecScatter N E wf).resultIdx? (ix1 e) idx = some (ix1 n) ↔ lands idx e n := by
  rw [resultIdx?_eq_some_iff]
  have hstart : (vecScatter N E wf).start (ix1 e) idx (0 : Fin 1) = (idx (at0 e)).toInt := by
    unfold ScatterDims.start
    rw [dif_pos (show (0 : Fin 1) ∈ (vecScatter N E wf).scatterDimsToOperandDims from List.mem_singleton.mpr rfl)]
    congr 2
    funext b; refine Fin.ext ?_
    match b with
    | ⟨0, _⟩ => rfl
    | ⟨1, _⟩ => rfl
  have hwin : (vecScatter N E wf).window (ix1 e) (0 : Fin 1) = 0 := by
    unfold ScatterDims.window
    split
    · rename_i h
      exact absurd (List.mem_singleton.mpr rfl) ((mem_sKept_iff _ _).mp h)
    · rfl
  constructor
  · intro h
    have h0 : (idx (at0 e)).toInt + ((0 : ℕ) : Int) = (n.val : Int) := by
      have := h (0 : Fin 1)
      rw [hstart, hwin] at this
      exact this
    show (idx (at0 e)).toInt = (n.val : Int)
    rw [Nat.cast_zero, add_zero] at h0
    exact h0
  · intro h a
    obtain rfl : a = 0 := Subsingleton.elim _ _
    rw [hstart, hwin]
    show (idx (at0 e)).toInt + ((0 : ℕ) : Int) = (n.val : Int)
    rw [Nat.cast_zero, add_zero]
    exact h

/-- `vector.at[idx].add(updates)` at row `n`, over the extended reals: the operand there plus the updates of the
    entries that land on `n`. -/
theorem vecScatterAdd_apply (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (n : Fin N) :
    Host.scatterAdd (F := Ideal) (vecScatter N E wf) x idx upd (ix1 n)
      = x (ix1 n) + ∑ e : Fin E, if lands idx e n then upd (ix1 e) else 0 := by
  show Ideal.hostScatterAdd (vecScatter N E wf) x idx upd (ix1 n) = _
  unfold Ideal.hostScatterAdd
  congr 1
  rw [Finset.sum_filter, sum_idx1]
  exact Finset.sum_congr rfl fun e _ => if_congr (vecScatter_lands wf idx e n) rfl rfl

/-- The dimension numbers of `matrix.at[idx].add(updates)` with whole-row updates. -/
abbrev rowScatter (N D E : ℕ) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

theorem rowScatter_lands (wf : ScatterDims.WF ⟨2, ![N, D]⟩ ⟨2, ![E, 1]⟩ ⟨2, ![E, D]⟩ [1] [0] [0] 1)
    (idx : IVec ⟨2, ![E, 1]⟩ w) (e : Fin E) (j' : Fin D) (n : Fin N) (j : Fin D) :
    (rowScatter N D E wf).resultIdx? (ix2 e j') idx = some (ix2 n j) ↔ lands idx e n ∧ j' = j := by
  rw [resultIdx?_eq_some_iff]
  have hstart0 : (rowScatter N D E wf).start (ix2 e j') idx (0 : Fin 2) = (idx (at0 e)).toInt := by
    unfold ScatterDims.start
    rw [dif_pos (show (0 : Fin 2) ∈ (rowScatter N D E wf).scatterDimsToOperandDims from List.mem_singleton.mpr rfl)]
    congr 2
    funext b; refine Fin.ext ?_
    match b with
    | ⟨0, _⟩ => rfl
    | ⟨1, _⟩ => rfl
  have hwin0 : (rowScatter N D E wf).window (ix2 e j') (0 : Fin 2) = 0 := by
    unfold ScatterDims.window
    split
    · rename_i h
      exact absurd (List.mem_singleton.mpr rfl) ((mem_sKept_iff _ _).mp h)
    · rfl
  have hstart1 : (rowScatter N D E wf).start (ix2 e j') idx (1 : Fin 2) = 0 := by
    unfold ScatterDims.start
    split
    · rename_i h
      exact ((by decide : ¬ (1 : Fin 2) ∈ ([0] : List (Fin 2))) h).elim
    · rfl
  have hwin1 : (rowScatter N D E wf).window (ix2 e j') (1 : Fin 2) = j'.val := by
    unfold ScatterDims.window
    split
    · rfl
    · rename_i h
      exact absurd ((mem_sKept_iff _ _).mpr
        (fun hh => absurd (hh : (1 : Fin 2) ∈ ([0] : List (Fin 2))) (by decide))) h
  constructor
  · intro h
    have h0 : (idx (at0 e)).toInt + ((0 : ℕ) : Int) = (n.val : Int) := by
      have := h (0 : Fin 2)
      rw [hstart0, hwin0] at this
      exact this
    have h1 : (0 : Int) + ((j'.val : ℕ) : Int) = (j.val : Int) := by
      have := h (1 : Fin 2)
      rw [hstart1, hwin1] at this
      exact this
    rw [Nat.cast_zero, add_zero] at h0
    rw [zero_add] at h1
    exact ⟨h0, Fin.ext (by exact_mod_cast h1)⟩
  · rintro ⟨h, rfl⟩ a
    match a with
    | ⟨0, _⟩ =>
      show (rowScatter N D E wf).start (ix2 e j') idx (0 : Fin 2) + (((rowScatter N D E wf).window (ix2 e j') (0 : Fin 2) : ℕ) : Int) = (n.val : Int)
      rw [hstart0, hwin0, Nat.cast_zero, add_zero]
      exact h
    | ⟨1, _⟩ =>
      show (rowScatter N D E wf).start (ix2 e j') idx (1 : Fin 2) + (((rowScatter N D E wf).window (ix2 e j') (1 : Fin 2) : ℕ) : Int) = (j'.val : Int)
      rw [hstart1, hwin1, zero_add]

/-- `matrix.at[idx].add(updates)` at `(n, j)`, over the extended reals: the operand there plus column `j` of the
    updates of the entries that land on row `n`. -/
theorem rowScatterAdd_apply (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32) (n : Fin N) (j : Fin D) :
    Host.scatterAdd (F := Ideal) (rowScatter N D E wf) x idx upd (ix2 n j)
      = x (ix2 n j) + ∑ e : Fin E, if lands idx e n then upd (ix2 e j) else 0 := by
  show Ideal.hostScatterAdd (rowScatter N D E wf) x idx upd (ix2 n j) = _
  unfold Ideal.hostScatterAdd
  congr 1
  rw [Finset.sum_filter, sum_idx2]
  refine Finset.sum_congr rfl fun e _ => ?_
  rw [Finset.sum_congr rfl fun j' _ => if_congr (rowScatter_lands wf idx e j' n j) rfl rfl]
  by_cases h : lands idx e n
  · simp only [h, true_and, if_true]
    rw [Finset.sum_ite_eq' Finset.univ j (fun j' => upd (ix2 e j'))]
    simp
  · simp only [h, false_and, if_false, Finset.sum_const_zero]

end Cert.EdgeIndex

end
-- ==== Proof.LibBroadcasts.lean ====
/-
  Three broadcasts read at an entry.

  A scalar splat reads the scalar everywhere.  A vector `[a]` laid as a column `[a, 1]` and then along `b` columns reads,
  at `(n, j)`, the vector at `n`.  A vector `[b]` laid as a row `[1, b]` and then down `a` rows reads, at `(n, j)`, the
  vector at `j`.
-/
import Idealize.ShloMosaic.Lib.Pipeline.Value
import Idealize.ShloMosaic.Lib.ValueIdx

noncomputable section

namespace Cert.Broadcasts

open Idealize.ShloMosaic Idealize.ShloMosaic.ValueIdx

variable {α : Type}

/-- A splat of a scalar reads the scalar at every index. -/
theorem splat_apply {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun q => q.elim0)

/-- A vector laid as a column and then along the columns: at `(n, j)` the vector at `n`. -/
theorem alongColumns_apply {a b : ℕ} (d : (⟨1, ![a]⟩ : Shape).Idx → α)
    (h0 : (⟨1, ![a]⟩ : Shape).BroadcastsInDim ⟨2, ![a, 1]⟩ ![0])
    (h1 : (⟨2, ![a, 1]⟩ : Shape).BroadcastsInDim ⟨2, ![a, b]⟩ ![0, 1]) (n : Fin a) (j : Fin b) :
    broadcastInDim ⟨2, ![a, b]⟩ ![0, 1] h1 (broadcastInDim ⟨2, ![a, 1]⟩ ![0] h0 d) (ix2 n j) = d (ix1 n) := by
  refine (broadcastInDim_apply ![0, 1] h1 _ (ix2 n j) (ix2 n (0 : Fin 1)) (fun q => ?_)).trans ?_
  · match q with
    | ⟨0, _⟩ =>
      show n.val = if a = 1 then 0 else n.val
      by_cases ha : a = 1
      · rw [if_pos ha]; have := n.isLt; omega
      · rw [if_neg ha]
    | ⟨1, _⟩ =>
      show (0 : ℕ) = if (1 : ℕ) = 1 then 0 else j.val
      rw [if_pos rfl]
  · refine broadcastInDim_apply ![0] h0 d (ix2 n (0 : Fin 1)) (ix1 n) (fun q => ?_)
    match q with
    | ⟨0, _⟩ =>
      show n.val = if a = 1 then 0 else n.val
      by_cases ha : a = 1
      · rw [if_pos ha]; have := n.isLt; omega
      · rw [if_neg ha]

/-- A vector laid as a row and then down the rows: at `(n, j)` the vector at `j`. -/
theorem downRows_apply {a b : ℕ} (x : (⟨1, ![b]⟩ : Shape).Idx → α)
    (h0 : (⟨1, ![b]⟩ : Shape).BroadcastsInDim ⟨2, ![1, b]⟩ ![1])
    (h1 : (⟨2, ![1, b]⟩ : Shape).BroadcastsInDim ⟨2, ![a, b]⟩ ![0, 1]) (n : Fin a) (j : Fin b) :
    broadcastInDim ⟨2, ![a, b]⟩ ![0, 1] h1 (broadcastInDim ⟨2, ![1, b]⟩ ![1] h0 x) (ix2 n j) = x (ix1 j) := by
  refine (broadcastInDim_apply ![0, 1] h1 _ (ix2 n j) (ix2 (0 : Fin 1) j) (fun q => ?_)).trans ?_
  · match q with
    | ⟨0, _⟩ =>
      show (0 : ℕ) = if (1 : ℕ) = 1 then 0 else n.val
      rw [if_pos rfl]
    | ⟨1, _⟩ =>
      show j.val = if b = 1 then 0 else j.val
      by_cases hb : b = 1
      · rw [if_pos hb]; have := j.isLt; omega
      · rw [if_neg hb]
  · refine broadcastInDim_apply ![1] h0 x (ix2 (0 : Fin 1) j) (ix1 j) (fun q => ?_)
    match q with
    | ⟨0, _⟩ =>
      show j.val = if b = 1 then 0 else j.val
      by_cases hb : b = 1
      · rw [if_pos hb]; have := j.isLt; omega
      · rw [if_neg hb]

/-- A vector laid as a column: at `(n, u)` the vector at `n`. -/
theorem column_apply {a : ℕ} (d : (⟨1, ![a]⟩ : Shape).Idx → α)
    (h0 : (⟨1, ![a]⟩ : Shape).BroadcastsInDim ⟨2, ![a, 1]⟩ ![0]) (n : Fin a) (u : Fin 1) :
    broadcastInDim ⟨2, ![a, 1]⟩ ![0] h0 d (ix2 n u) = d (ix1 n) := by
  refine broadcastInDim_apply ![0] h0 d (ix2 n u) (ix1 n) (fun q => ?_)
  match q with
  | ⟨0, _⟩ =>
    show n.val = if a = 1 then 0 else n.val
    by_cases ha : a = 1
    · rw [if_pos ha]; have := n.isLt; omega
    · rw [if_neg ha]

end Cert.Broadcasts

end
-- ==== Proof.KernelHost.lean ====
/-
  The neighbour sums as the kernel program's host operations compute them, and the launch's operands read back.

  NEIGHBOUR SUMS.  The edge list E is a [2, 160000] integer array: row 0 the source node of every edge, row 1 its
  destination.  The program takes, for edge e, the row of the features X at the source (a negative source has
  20000 added first; the gather then clamps the row into range), and adds it into the row of a zero array at the
  destination (an edge whose destination is out of range is dropped).  So row n of the result is the sum, over the
  edges that land on n, of rows of X: every entry is a finite sum of entries of X, and is a real number when the
  entries of X are.  Nothing more about the edges is ever needed.

  THE LAUNCH'S OPERANDS.  Before each launch the host transposes W_rel, adds W_root and W_lin and transposes the sum,
  and adds the two biases and lays the sum out as a row.  Read at an entry, a launch over these operands computes the
  layer in its fused arrangement: P[k, c] = W_rel[c, k], Q[k, c] = W_root[c, k] + W_lin[c, k], b[0, c] = b_rel[c] + b_lin[c].
-/
import proofs.«150026_j60559038874107_2_alg».proof.KernelIdeal
import proofs.«150026_j60559038874107_2_alg».proof.Proof.Gen.KernelIdeal
import proofs.«150026_j60559038874107_2_alg».proof.Proof.Layers
import proofs.«150026_j60559038874107_2_alg».proof.Proof.LibEdgeIndex
import proofs.«150026_j60559038874107_2_alg».proof.Proof.LibBroadcasts
import Idealize.ShloMosaic.Lib.ValueLayout
import Idealize.ShloMosaic.Lib.Pipeline.Value

noncomputable section

namespace Cert.GraphConv.KernelHost

open Idealize.ShloMosaic Idealize.ShloMosaic.ValueIdx Cert.KernelIdeal Cert.KernelIdeal.Facts₀ Cert.GraphConv Cert.Scores

/-- The source node of every edge: row 0 of the edge list. -/
def srcOf (E : IVec S2x160000 32) : IVec S160000 32 :=
  shapeCast S160000 (extractStridedSlice S1x160000 ![0, 0] E slices_S2x160000_S1x160000_0_0) shapeCasts_S1x160000_S160000

/-- The destination node of every edge: row 1 of the edge list. -/
def dstOf (E : IVec S2x160000 32) : IVec S160000 32 :=
  shapeCast S160000 (extractStridedSlice S1x160000 ![1, 0] E slices_S2x160000_S1x160000_1_0) shapeCasts_S1x160000_S160000

/-- The rows of `X` at the edges' sources, added into a zero array at the edges' destinations. -/
def aggOf (src dst : IVec S160000 32) (X : FVec Ideal S20000x512 .f32) : FVec Ideal S20000x512 .f32 :=
  Host.scatterAdd (F := Ideal) scatter_S20000x512_S160000x1_S160000x512_1_0_0_1
    (broadcastInDim S20000x512 ![] bcast_S_S20000x512 (constant (F := Ideal) S_ .f32 0x00000000#32))
    (broadcastInDim S160000x1 ![0] bcast_S160000_S160000x1_0 dst)
    (Host.gather gather_S20000x512_S160000x1_S160000x512_1_0_n_n_0_1_1512 X
      (broadcastInDim S160000x1 ![0] bcast_S160000_S160000x1_0
        (select (cmpi .slt src (broadcastInDim S160000 ![] bcast_S_S160000 (constantI S_ 32 0#32)))
          (addi src (broadcastInDim S160000 ![] bcast_S_S160000 (constantI S_ 32 20000#32))) src)))

/-- The neighbour sums of `X` over the edge list `E`. -/
def aggK (E : IVec S2x160000 32) (X : SN.Idx → EReal) : SN.Idx → EReal := aggOf (srcOf E) (dstOf E) X

/-- Neighbour sums of real features are real, whatever the edges. -/
theorem aggOf_real (src dst : IVec S160000 32) (X : FVec Ideal S20000x512 .f32) (hX : AllReal (s := SN) X) :
    AllReal (s := SN) (aggOf src dst X) := by
  intro i
  obtain ⟨n, j, rfl⟩ : ∃ (n : Fin 20000) (j : Fin 512), i = ix2 n j := ⟨i 0, i 1, eq_ix2 i⟩
  unfold aggOf
  refine (congrArg IsReal (Cert.EdgeIndex.rowScatterAdd_apply (N := 20000) (D := 512) (E := 160000) (w := 32)
    scatter_S20000x512_S160000x1_S160000x512_1_0_0_1_wf _ _ _ n j)).mpr ?_
  refine IsReal.add ?_ (IsReal.sum _ fun e => ?_)
  · rw [Cert.Broadcasts.splat_apply]
    show IsReal (Ideal.ofBits .f32 0x00000000#32)
    rw [Ideal.ofBits_zero_f32]
    exact isReal_zero
  · split
    · exact (congrArg IsReal (Cert.EdgeIndex.rowGather_apply (N := 20000) (D := 512) (E := 160000) (w := 32) (by decide)
        gather_S20000x512_S160000x1_S160000x512_1_0_n_n_0_1_1512_wf X _ e j)).mpr (hX _)
    · exact isReal_zero

theorem aggK_real (E : IVec S2x160000 32) (X : SN.Idx → EReal) (hX : AllReal X) : AllReal (aggK E X) :=
  aggOf_real _ _ X hX

/-- A launch over the transposed matrices and the bias row computes the layer in its fused arrangement. -/
theorem tile_eq_fused (act : EReal → EReal) (A X : SN.Idx → EReal) (p : Params)
    (ht : SW.Transposes [1, 0] SW) (hc : SB.ShapeCasts SR) :
    tile act A X (transpose SW [1, 0] p.wrel ht) (transpose SW [1, 0] (addf (F := Ideal) (φ := .f32) p.wroot p.wlin) ht)
        (shapeCast SR (addf (F := Ideal) (φ := .f32) p.brel p.blin) hc)
      = fused act p A X := by
  funext i
  obtain ⟨r, c, rfl⟩ : ∃ (r : Fin 20000) (c : Fin 512), i = ix2 r c := ⟨i 0, i 1, eq_ix2 i⟩
  show act (tilePre A X _ _ _ r c) = act (fusedPre p A X r c)
  refine congrArg act ?_
  unfold tilePre fusedPre rowDot
  rw [shapeCast_a_1a_apply]
  have hP : ∀ k : Fin 512, transpose SW [1, 0] p.wrel ht (ix2 k c) = p.wrel (ix2 c k) :=
    fun k => transpose_ix2_apply p.wrel ht k c
  have hQ : ∀ k : Fin 512, transpose SW [1, 0] (addf (F := Ideal) (φ := .f32) p.wroot p.wlin) ht (ix2 k c)
      = p.wroot (ix2 c k) + p.wlin (ix2 c k) :=
    fun k => transpose_ix2_apply (addf (F := Ideal) (φ := .f32) p.wroot p.wlin) ht k c
  rw [Finset.sum_congr rfl fun k _ => congrArg (A (ix2 r k) * ·) (hP k),
    Finset.sum_congr rfl fun k _ => congrArg (X (ix2 r k) * ·) (hQ k)]
  rfl

end Cert.GraphConv.KernelHost

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.Region0.lean ====
/-
  What launch 0 of the fused linear layer leaves in its output array, as one function of the arrays it finds.

  The launch walks ten grid points. Point t stages rows 2000·t … 2000·t + 1999 of the neighbour sums A and of the
  features X (all 512 channels of each), the two weight matrices P and Q whole, and the bias row b whole; it computes,
  for each of its 2000 rows r and each of the 512 output channels c,
      max( (Σ_k A[2000·t + r, k]·P[k, c]) + (Σ_k X[2000·t + r, k]·Q[k, c]) + b[0, c], 0 )
  and writes that [2000, 512] block back to rows 2000·t … 2000·t + 1999 of the output.

  Three facts make the output array the function `tile relu A X P Q b` of the specification:
   • the body at one entry of its block is that formula (each on-chip product into a zero accumulator is the plain sum
     over the 512 input channels; the bias row is repeated down the rows; the literal the maximum is taken against is the zero word);
   • entry (r, k) of a row-blocked input's block at point t is entry (2000·t + r, k) of its array, and the whole-staged
     inputs are read where they stand, so the block written back at t is the block of `tile …` at the same place;
   • the ten blocks cover the output: row r is in the block of point r / 2000.
-/
import proofs.«150026_j60559038874107_2_alg».proof.Proof.Gen.KernelIdeal.Frame
import proofs.«150026_j60559038874107_2_alg».proof.Proof.Spec
import proofs.«150026_j60559038874107_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section
namespace Cert.GraphConv.Region0
open Idealize.ShloMosaic Idealize.ShloMosaic.TcCoe Idealize.SL.Sem Cert.KernelIdeal Cert.KernelIdeal.Gen Cert.GraphConv
open Idealize.ShloMosaic.ValueIdx

/-- The all-zero offsets of a whole-buffer access, however they are spelt. -/
theorem hz : (![0, 0] : Fin 2 → Nat) = fun _ => 0 := funext fun a => by fin_cases a <;> rfl

/-- The arithmetic of one grid point at row `r`, channel `c` of its block: the two inner products over the 512 input
    channels, added, plus the bias at channel `c`, and the rectifier. -/
theorem body_apply (a x : Vec Ideal S2000x512 .f32) (p q : Vec Ideal S512x512 .f32) (b : Vec Ideal S1x512 .f32)
    (r : Fin 2000) (c : Fin 512) :
    k0_pay1 a p x q b (ix2 r c)
      = relu (((∑ k : Fin 512, a (ix2 r k) * p (ix2 k c)) + ∑ k : Fin 512, x (ix2 r k) * q (ix2 k c)) + b (ix2 (0 : Fin 1) c)) := by
  unfold k0_pay1
  simp only [shapeCast_self]
  rw [maximumf_apply, addf_apply, addf_apply, broadcast_apply]
  exact congrArg₂ max
    (congrArg₂ HAdd.hAdd
      (congrArg₂ HAdd.hAdd
        (Cert.PlainDot.matmul_zero_apply dot_S2000x512_S512x512_S2000x512_1_0_0_1_n_n rfl (some .fp32) a p r c)
        (Cert.PlainDot.matmul_zero_apply dot_S2000x512_S512x512_S2000x512_1_0_0_1_n_n rfl (some .fp32) x q r c))
      (broadcastTo_1b_ab_apply b broadcasts_S1x512_S2000x512 r c))
    Ideal.ofBits_zero_f32

/-- A block's entry is the array's entry where the block lies: an activation `act` of the two inner products and the
    bias, taken over a block's rows and the whole weight matrices, is the launch's function at the array index `i`
    whose row the block's row `r` is and whose channel is `cc`. -/
theorem tile_of_blocks (act : EReal → EReal) (A X : SN.Idx → EReal) (P Q : SW.Idx → EReal) (B : SR.Idx → EReal)
    (a x : Vec Ideal S2000x512 .f32) (p q : Vec Ideal S512x512 .f32) (b : Vec Ideal S1x512 .f32)
    (i : SN.Idx) (r : Fin 2000) (cc : Fin 512)
    (ha : ∀ k : Fin 512, a (ix2 r k) = A (ix2 (i 0) k))
    (hx : ∀ k : Fin 512, x (ix2 r k) = X (ix2 (i 0) k))
    (hp : ∀ k : Fin 512, p (ix2 k cc) = P (ix2 k (i 1)))
    (hq : ∀ k : Fin 512, q (ix2 k cc) = Q (ix2 k (i 1)))
    (hb : b (ix2 (0 : Fin 1) cc) = B (ix2 (0 : Fin 1) (i 1))) :
    act (((∑ k : Fin 512, a (ix2 r k) * p (ix2 k cc)) + ∑ k : Fin 512, x (ix2 r k) * q (ix2 k cc)) + b (ix2 (0 : Fin 1) cc))
      = tile act A X P Q B i := by
  show _ = act (tilePre A X P Q B (i 0) (i 1))
  unfold tilePre
  simp only [ha, hx, hp, hq, hb]

/-- The index maps over the ten grid points: the two row-blocked inputs and the output sit at block row `t`, block
    column 0; the weights and the bias row at block (0, 0). -/
theorem idx_facts : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

section
variable (V : (c : Dev nD) → (b : Ref sig .tc) → Buf (Elt Ideal) ((c : Thread nD τ).loc b)) (c : Dev nD) (t : Fin cfg0.N)

/-- Row `r` of the neighbour sums' block at point `t` is row `2000 t + r` of the array. -/
theorem blockA (r : Fin 2000) (k : Fin 512) (i : SN.Idx) (hi0 : (i 0).val = t.val * 2000 + r.val) (hi1 : (i 1).val = k.val) :
    (iblk0 (F := Ideal) V c 0 t : Vec Ideal S2000x512 .f32) (ix2 r k) = (V c main_v13 : SN.Idx → EReal) i := by
  obtain ⟨-, -, e0, e1, -⟩ := idx_facts t
  unfold iblk0
  rw [View.read_apply]
  show V c main_v13 _ = V c main_v13 _
  refine congrArg _ ?_
  funext a
  apply Fin.ext
  match a with
  | ⟨0, _⟩ => show win0_0.index t (0 : Fin 2) * 2000 + 1 * r.val = (i 0).val; rw [e0, hi0]; omega
  | ⟨1, _⟩ => show win0_0.index t (1 : Fin 2) * 512 + 1 * k.val = (i 1).val; rw [e1, hi1]; omega

end

section
variable (V : (c : Dev nD) → (b : Ref sig .tc) → Buf (Elt Ideal) ((c : Thread nD τ).loc b)) (c : Dev nD) (t : Fin cfg0.N)

/-- Row `r` of the features' block at point `t` is row `2000 t + r` of the array. -/
theorem blockX (r : Fin 2000) (k : Fin 512) (i : SN.Idx) (hi0 : (i 0).val = t.val * 2000 + r.val) (hi1 : (i 1).val = k.val) :
    (iblk0 (F := Ideal) V c 1 t : Vec Ideal S2000x512 .f32) (ix2 r k) = (V c main_arg0 : SN.Idx → EReal) i := by
  obtain ⟨-, -, -, -, e0, e1, -⟩ := idx_facts t
  unfold iblk0
  rw [View.read_apply]
  show V c main_arg0 _ = V c main_arg0 _
  refine congrArg _ ?_
  funext a
  apply Fin.ext
  match a with
  | ⟨0, _⟩ => show win0_1.index t (0 : Fin 2) * 2000 + 1 * r.val = (i 0).val; rw [e0, hi0]; omega
  | ⟨1, _⟩ => show win0_1.index t (1 : Fin 2) * 512 + 1 * k.val = (i 1).val; rw [e1, hi1]; omega

/-- The first weight matrix is staged whole at every point. -/
theorem blockP (k : Fin 512) (n : Fin 512) (i : SW.Idx) (hi0 : (i 0).val = k.val) (hi1 : (i 1).val = n.val) :
    (iblk0 (F := Ideal) V c 2 t : Vec Ideal S512x512 .f32) (ix2 k n) = (V c main_v14 : SW.Idx → EReal) i := by
  obtain ⟨-, -, -, -, -, -, e0, e1, -⟩ := idx_facts t
  unfold iblk0
  rw [View.read_apply]
  show V c main_v14 _ = V c main_v14 _
  refine congrArg _ ?_
  funext a
  apply Fin.ext
  match a with
  | ⟨0, _⟩ => show win0_2.index t (0 : Fin 2) * 512 + 1 * k.val = (i 0).val; rw [e0, hi0]; omega
  | ⟨1, _⟩ => show win0_2.index t (1 : Fin 2) * 512 + 1 * n.val = (i 1).val; rw [e1, hi1]; omega

/-- The second weight matrix is staged whole at every point. -/
theorem blockQ (k : Fin 512) (n : Fin 512) (i : SW.Idx) (hi0 : (i 0).val = k.val) (hi1 : (i 1).val = n.val) :
    (iblk0 (F := Ideal) V c 3 t : Vec Ideal S512x512 .f32) (ix2 k n) = (V c main_v16 : SW.Idx → EReal) i := by
  obtain ⟨-, -, -, -, -, -, -, -, e0, e1, -⟩ := idx_facts t
  unfold iblk0
  rw [View.read_apply]
  show V c main_v16 _ = V c main_v16 _
  refine congrArg _ ?_
  funext a
  apply Fin.ext
  match a with
  | ⟨0, _⟩ => show win0_3.index t (0 : Fin 2) * 512 + 1 * k.val = (i 0).val; rw [e0, hi0]; omega
  | ⟨1, _⟩ => show win0_3.index t (1 : Fin 2) * 512 + 1 * n.val = (i 1).val; rw [e1, hi1]; omega

/-- The bias row is staged whole at every point. -/
theorem blockB (n : Fin 512) (i : SR.Idx) (hi0 : (i 0).val = 0) (hi1 : (i 1).val = n.val) :
    (iblk0 (F := Ideal) V c 4 t : Vec Ideal S1x512 .f32) (ix2 (0 : Fin 1) n) = (V c main_v18 : SR.Idx → EReal) i := by
  obtain ⟨-, -, -, -, -, -, -, -, -, -, e0, e1⟩ := idx_facts t
  unfold iblk0
  rw [View.read_apply]
  show V c main_v18 _ = V c main_v18 _
  refine congrArg _ ?_
  funext a
  apply Fin.ext
  match a with
  | ⟨0, _⟩ => show win0_4.index t (0 : Fin 2) * 1 + 1 * (0 : Fin 1).val = (i 0).val; rw [e0, hi0]; rfl
  | ⟨1, _⟩ => show win0_4.index t (1 : Fin 2) * 512 + 1 * n.val = (i 1).val; rw [e1, hi1]; omega

/-- What point `t` writes back is block `t` of the launch's function of the arrays the launch finds. -/
theorem flushed_eq :
    (dat0 (F := Ideal) V c).flushed 5 t
      = ((cfg0.win 5).blk t).view.read (Elt Ideal)
          (tile relu (V c main_v13) (V c main_arg0) (V c main_v14) (V c main_v16) (V c main_v18)) := by
  show (cfg0.win 5).cut (grid0.coords t) ((dat0 V c).after 5 t) = _
  rw [after0_5]
  unfold out0_5
  rw [View.canon_unit_zero hz]
  simp only [View.ld_unit_zero (S := S2000x512) hz, View.ld_unit_zero (S := S512x512) hz, View.ld_unit_zero (S := S1x512) hz]
  obtain ⟨e0, e1, -⟩ := idx_facts t
  funext j
  obtain ⟨r, cc, rfl⟩ : ∃ (r : Fin 2000) (cc : Fin 512), j = ix2 r cc := ⟨j 0, j 1, eq_ix2 j⟩
  refine (body_apply (iblk0 V c 0 t) (iblk0 V c 1 t) (iblk0 V c 2 t) (iblk0 V c 3 t) (iblk0 V c 4 t) r cc).trans ?_
  show _ = tile relu (V c main_v13) (V c main_arg0) (V c main_v14) (V c main_v16) (V c main_v18)
    (((cfg0.win 5).blk t).view.emb (ix2 r cc))
  have h0 : ((((cfg0.win 5).blk t).view.emb (ix2 r cc)) 0).val = t.val * 2000 + r.val := by
    show win0_5.index t (0 : Fin 2) * 2000 + 1 * r.val = _; rw [e0]; omega
  have h1 : ((((cfg0.win 5).blk t).view.emb (ix2 r cc)) 1).val = cc.val := by
    show win0_5.index t (1 : Fin 2) * 512 + 1 * cc.val = _; rw [e1]; omega
  refine tile_of_blocks relu (V c main_v13) (V c main_arg0) (V c main_v14) (V c main_v16) (V c main_v18)
    (iblk0 V c 0 t) (iblk0 V c 1 t) (iblk0 V c 2 t) (iblk0 V c 3 t) (iblk0 V c 4 t)
    (((cfg0.win 5).blk t).view.emb (ix2 r cc)) r cc (fun k => ?_) (fun k => ?_) (fun k => ?_) (fun k => ?_) ?_
  · exact blockA V c t r k _ h0 rfl
  · exact blockX V c t r k _ h0 rfl
  · exact blockP V c t k cc _ rfl h1
  · exact blockQ V c t k cc _ rfl h1
  · exact blockB V c t cc _ rfl h1

end

/-- An index of the output array lies in point `t`'s block iff each coordinate lies in the block's range on its axis. -/
theorem mem_blk (t : Fin cfg0.N) (i : SN.Idx) :
    i ∈ ((cfg0.win 5).blk t).view.set ↔ ∀ a : Fin 2, win0_5.index t a * S2000x512.size a ≤ (i a).val
      ∧ (i a).val < win0_5.index t a * S2000x512.size a + S2000x512.size a := by
  show i ∈ ((View.whole main_v19).slice (win0_5.rect t)).set ↔ _
  rw [View.set_slice_whole, Rect.mem_set_unit]
  exact Iff.rfl

/-- Every index of the output array is written back by some point: row `r` by point `r / 2000`. -/
theorem cover (i : SN.Idx) : ∃ t : Fin cfg0.N, (cfg0.win 5).flush t = true ∧ i ∈ ((cfg0.win 5).blk t).view.set := by
  have hi0 : (i 0).val < 20000 := (i 0).isLt
  have hi1 : (i 1).val < 512 := (i 1).isLt
  have hN : grid0.N = 10 := N_0
  have ht : (i 0).val / 2000 < grid0.N := by rw [hN]; omega
  obtain ⟨e0, e1, -⟩ := idx_facts ⟨(i 0).val / 2000, ht⟩
  refine ⟨⟨(i 0).val / 2000, ht⟩, flush0_5 _, ?_⟩
  rw [mem_blk]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, ht⟩ (1 : Fin 2) * 512 ≤ (i 1).val
      ∧ (i 1).val < win0_5.index ⟨(i 0).val / 2000, ht⟩ (1 : Fin 2) * 512 + 512
    rw [e1]; omega

/-- The output array after the launch is the launch's function of the arrays it found. -/
theorem final (V : (c : Dev nD) → (b : Ref sig .tc) → Buf (Elt Ideal) ((c : Thread nD τ).loc b)) (c : Dev nD) :
    ((dat0 (F := Ideal) V c).arrAt 5 cfg0.N : SN.Idx → EReal)
      = tile relu (V c main_v13) (V c main_arg0) (V c main_v14) (V c main_v16) (V c main_v18) :=
  (dat0 V c).arrAt_eq_of_cover 5 (tile relu (V c main_v13) (V c main_arg0) (V c main_v14) (V c main_v16) (V c main_v18))
    (fun t _ => flushed_eq V c t) cover

end Cert.GraphConv.Region0
end
-- ==== Proof.Region1.lean ====
/-
  What launch 1 of the fused linear layer leaves in its output array, as one function of the arrays it finds.

  The launch walks ten grid points. Point t stages rows 2000·t … 2000·t + 1999 of the neighbour sums A and of the
  features X (all 512 channels of each), the two weight matrices P and Q whole, and the bias row b whole; it computes,
  for each of its 2000 rows r and each of the 512 output channels c,
      max( (Σ_k A[2000·t + r, k]·P[k, c]) + (Σ_k X[2000·t + r, k]·Q[k, c]) + b[0, c], 0 )
  and writes that [2000, 512] block back to rows 2000·t … 2000·t + 1999 of the output.

  Three facts make the output array the function `tile relu A X P Q b` of the specification:
   • the body at one entry of its block is that formula (each on-chip product into a zero accumulator is the plain sum
     over the 512 input channels; the bias row is repeated down the rows; the literal the maximum is taken against is the zero word);
   • entry (r, k) of a row-blocked input's block at point t is entry (2000·t + r, k) of its array, and the whole-staged
     inputs are read where they stand, so the block written back at t is the block of `tile …` at the same place;
   • the ten blocks cover the output: row r is in the block of point r / 2000.
-/
import proofs.«150026_j60559038874107_2_alg».proof.Proof.Gen.KernelIdeal.Frame
import proofs.«150026_j60559038874107_2_alg».proof.Proof.Spec
import proofs.«150026_j60559038874107_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section
namespace Cert.GraphConv.Region1
open Idealize.ShloMosaic Idealize.ShloMosaic.TcCoe Idealize.SL.Sem Cert.KernelIdeal Cert.KernelIdeal.Gen Cert.GraphConv
open Idealize.ShloMosaic.ValueIdx

/-- The all-zero offsets of a whole-buffer access, however they are spelt. -/
theorem hz : (![0, 0] : Fin 2 → Nat) = fun _ => 0 := funext fun a => by fin_cases a <;> rfl

/-- The arithmetic of one grid point at row `r`, channel `c` of its block: the two inner products over the 512 input
    channels, added, plus the bias at channel `c`, and the rectifier. -/
theorem body_apply (a x : Vec Ideal S2000x512 .f32) (p q : Vec Ideal S512x512 .f32) (b : Vec Ideal S1x512 .f32)
    (r : Fin 2000) (c : Fin 512) :
    k1_pay1 a p x q b (ix2 r c)
      = relu (((∑ k : Fin 512, a (ix2 r k) * p (ix2 k c)) + ∑ k : Fin 512, x (ix2 r k) * q (ix2 k c)) + b (ix2 (0 : Fin 1) c)) := by
  unfold k1_pay1
  simp only [shapeCast_self]
  rw [maximumf_apply, addf_apply, addf_apply, broadcast_apply]
  exact congrArg₂ max
    (congrArg₂ HAdd.hAdd
      (congrArg₂ HAdd.hAdd
        (Cert.PlainDot.matmul_zero_apply dot_S2000x512_S512x512_S2000x512_1_0_0_1_n_n rfl (some .fp32) a p r c)
        (Cert.PlainDot.matmul_zero_apply dot_S2000x512_S512x512_S2000x512_1_0_0_1_n_n rfl (some .fp32) x q r c))
      (broadcastTo_1b_ab_apply b broadcasts_S1x512_S2000x512 r c))
    Ideal.ofBits_zero_f32

/-- A block's entry is the array's entry where the block lies: an activation `act` of the two inner products and the
    bias, taken over a block's rows and the whole weight matrices, is the launch's function at the array index `i`
    whose row the block's row `r` is and whose channel is `cc`. -/
theorem tile_of_blocks (act : EReal → EReal) (A X : SN.Idx → EReal) (P Q : SW.Idx → EReal) (B : SR.Idx → EReal)
    (a x : Vec Ideal S2000x512 .f32) (p q : Vec Ideal S512x512 .f32) (b : Vec Ideal S1x512 .f32)
    (i : SN.Idx) (r : Fin 2000) (cc : Fin 512)
    (ha : ∀ k : Fin 512, a (ix2 r k) = A (ix2 (i 0) k))
    (hx : ∀ k : Fin 512, x (ix2 r k) = X (ix2 (i 0) k))
    (hp : ∀ k : Fin 512, p (ix2 k cc) = P (ix2 k (i 1)))
    (hq : ∀ k : Fin 512, q (ix2 k cc) = Q (ix2 k (i 1)))
    (hb : b (ix2 (0 : Fin 1) cc) = B (ix2 (0 : Fin 1) (i 1))) :
    act (((∑ k : Fin 512, a (ix2 r k) * p (ix2 k cc)) + ∑ k : Fin 512, x (ix2 r k) * q (ix2 k cc)) + b (ix2 (0 : Fin 1) cc))
      = tile act A X P Q B i := by
  show _ = act (tilePre A X P Q B (i 0) (i 1))
  unfold tilePre
  simp only [ha, hx, hp, hq, hb]

/-- The index maps over the ten grid points: the two row-blocked inputs and the output sit at block row `t`, block
    column 0; the weights and the bias row at block (0, 0). -/
theorem idx_facts : ∀ t : Fin cfg1.N,
    win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

section
variable (V : (c : Dev nD) → (b : Ref sig .tc) → Buf (Elt Ideal) ((c : Thread nD τ).loc b)) (c : Dev nD) (t : Fin cfg1.N)

/-- Row `r` of the neighbour sums' block at point `t` is row `2000 t + r` of the array. -/
theorem blockA (r : Fin 2000) (k : Fin 512) (i : SN.Idx) (hi0 : (i 0).val = t.val * 2000 + r.val) (hi1 : (i 1).val = k.val) :
    (iblk1 (F := Ideal) V c 0 t : Vec Ideal S2000x512 .f32) (ix2 r k) = (V c main_v29 : SN.Idx → EReal) i := by
  obtain ⟨-, -, e0, e1, -⟩ := idx_facts t
  unfold iblk1
  rw [View.read_apply]
  show V c main_v29 _ = V c main_v29 _
  refine congrArg _ ?_
  funext a
  apply Fin.ext
  match a with
  | ⟨0, _⟩ => show win1_0.index t (0 : Fin 2) * 2000 + 1 * r.val = (i 0).val; rw [e0, hi0]; omega
  | ⟨1, _⟩ => show win1_0.index t (1 : Fin 2) * 512 + 1 * k.val = (i 1).val; rw [e1, hi1]; omega

end

section
variable (V : (c : Dev nD) → (b : Ref sig .tc) → Buf (Elt Ideal) ((c : Thread nD τ).loc b)) (c : Dev nD) (t : Fin cfg1.N)

/-- Row `r` of the features' block at point `t` is row `2000 t + r` of the array. -/
theorem blockX (r : Fin 2000) (k : Fin 512) (i : SN.Idx) (hi0 : (i 0).val = t.val * 2000 + r.val) (hi1 : (i 1).val = k.val) :
    (iblk1 (F := Ideal) V c 1 t : Vec Ideal S2000x512 .f32) (ix2 r k) = (V c main_v19 : SN.Idx → EReal) i := by
  obtain ⟨-, -, -, -, e0, e1, -⟩ := idx_facts t
  unfold iblk1
  rw [View.read_apply]
  show V c main_v19 _ = V c main_v19 _
  refine congrArg _ ?_
  funext a
  apply Fin.ext
  match a with
  | ⟨0, _⟩ => show win1_1.index t (0 : Fin 2) * 2000 + 1 * r.val = (i 0).val; rw [e0, hi0]; omega
  | ⟨1, _⟩ => show win1_1.index t (1 : Fin 2) * 512 + 1 * k.val = (i 1).val; rw [e1, hi1]; omega

/-- The first weight matrix is staged whole at every point. -/
theorem blockP (k : Fin 512) (n : Fin 512) (i : SW.Idx) (hi0 : (i 0).val = k.val) (hi1 : (i 1).val = n.val) :
    (iblk1 (F := Ideal) V c 2 t : Vec Ideal S512x512 .f32) (ix2 k n) = (V c main_v30 : SW.Idx → EReal) i := by
  obtain ⟨-, -, -, -, -, -, e0, e1, -⟩ := idx_facts t
  unfold iblk1
  rw [View.read_apply]
  show V c main_v30 _ = V c main_v30 _
  refine congrArg _ ?_
  funext a
  apply Fin.ext
  match a with
  | ⟨0, _⟩ => show win1_2.index t (0 : Fin 2) * 512 + 1 * k.val = (i 0).val; rw [e0, hi0]; omega
  | ⟨1, _⟩ => show win1_2.index t (1 : Fin 2) * 512 + 1 * n.val = (i 1).val; rw [e1, hi1]; omega

/-- The second weight matrix is staged whole at every point. -/
theorem blockQ (k : Fin 512) (n : Fin 512) (i : SW.Idx) (hi0 : (i 0).val = k.val) (hi1 : (i 1).val = n.val) :
    (iblk1 (F := Ideal) V c 3 t : Vec Ideal S512x512 .f32) (ix2 k n) = (V c main_v32 : SW.Idx → EReal) i := by
  obtain ⟨-, -, -, -, -, -, -, -, e0, e1, -⟩ := idx_facts t
  unfold iblk1
  rw [View.read_apply]
  show V c main_v32 _ = V c main_v32 _
  refine congrArg _ ?_
  funext a
  apply Fin.ext
  match a with
  | ⟨0, _⟩ => show win1_3.index t (0 : Fin 2) * 512 + 1 * k.val = (i 0).val; rw [e0, hi0]; omega
  | ⟨1, _⟩ => show win1_3.index t (1 : Fin 2) * 512 + 1 * n.val = (i 1).val; rw [e1, hi1]; omega

/-- The bias row is staged whole at every point. -/
theorem blockB (n : Fin 512) (i : SR.Idx) (hi0 : (i 0).val = 0) (hi1 : (i 1).val = n.val) :
    (iblk1 (F := Ideal) V c 4 t : Vec Ideal S1x512 .f32) (ix2 (0 : Fin 1) n) = (V c main_v34 : SR.Idx → EReal) i := by
  obtain ⟨-, -, -, -, -, -, -, -, -, -, e0, e1⟩ := idx_facts t
  unfold iblk1
  rw [View.read_apply]
  show V c main_v34 _ = V c main_v34 _
  refine congrArg _ ?_
  funext a
  apply Fin.ext
  match a with
  | ⟨0, _⟩ => show win1_4.index t (0 : Fin 2) * 1 + 1 * (0 : Fin 1).val = (i 0).val; rw [e0, hi0]; rfl
  | ⟨1, _⟩ => show win1_4.index t (1 : Fin 2) * 512 + 1 * n.val = (i 1).val; rw [e1, hi1]; omega

/-- What point `t` writes back is block `t` of the launch's function of the arrays the launch finds. -/
theorem flushed_eq :
    (dat1 (F := Ideal) V c).flushed 5 t
      = ((cfg1.win 5).blk t).view.read (Elt Ideal)
          (tile relu (V c main_v29) (V c main_v19) (V c main_v30) (V c main_v32) (V c main_v34)) := by
  show (cfg1.win 5).cut (grid1.coords t) ((dat1 V c).after 5 t) = _
  rw [after1_5]
  unfold out1_5
  rw [View.canon_unit_zero hz]
  simp only [View.ld_unit_zero (S := S2000x512) hz, View.ld_unit_zero (S := S512x512) hz, View.ld_unit_zero (S := S1x512) hz]
  obtain ⟨e0, e1, -⟩ := idx_facts t
  funext j
  obtain ⟨r, cc, rfl⟩ : ∃ (r : Fin 2000) (cc : Fin 512), j = ix2 r cc := ⟨j 0, j 1, eq_ix2 j⟩
  refine (body_apply (iblk1 V c 0 t) (iblk1 V c 1 t) (iblk1 V c 2 t) (iblk1 V c 3 t) (iblk1 V c 4 t) r cc).trans ?_
  show _ = tile relu (V c main_v29) (V c main_v19) (V c main_v30) (V c main_v32) (V c main_v34)
    (((cfg1.win 5).blk t).view.emb (ix2 r cc))
  have h0 : ((((cfg1.win 5).blk t).view.emb (ix2 r cc)) 0).val = t.val * 2000 + r.val := by
    show win1_5.index t (0 : Fin 2) * 2000 + 1 * r.val = _; rw [e0]; omega
  have h1 : ((((cfg1.win 5).blk t).view.emb (ix2 r cc)) 1).val = cc.val := by
    show win1_5.index t (1 : Fin 2) * 512 + 1 * cc.val = _; rw [e1]; omega
  refine tile_of_blocks relu (V c main_v29) (V c main_v19) (V c main_v30) (V c main_v32) (V c main_v34)
    (iblk1 V c 0 t) (iblk1 V c 1 t) (iblk1 V c 2 t) (iblk1 V c 3 t) (iblk1 V c 4 t)
    (((cfg1.win 5).blk t).view.emb (ix2 r cc)) r cc (fun k => ?_) (fun k => ?_) (fun k => ?_) (fun k => ?_) ?_
  · exact blockA V c t r k _ h0 rfl
  · exact blockX V c t r k _ h0 rfl
  · exact blockP V c t k cc _ rfl h1
  · exact blockQ V c t k cc _ rfl h1
  · exact blockB V c t cc _ rfl h1

end

/-- An index of the output array lies in point `t`'s block iff each coordinate lies in the block's range on its axis. -/
theorem mem_blk (t : Fin cfg1.N) (i : SN.Idx) :
    i ∈ ((cfg1.win 5).blk t).view.set ↔ ∀ a : Fin 2, win1_5.index t a * S2000x512.size a ≤ (i a).val
      ∧ (i a).val < win1_5.index t a * S2000x512.size a + S2000x512.size a := by
  show i ∈ ((View.whole main_v35).slice (win1_5.rect t)).set ↔ _
  rw [View.set_slice_whole, Rect.mem_set_unit]
  exact Iff.rfl

/-- Every index of the output array is written back by some point: row `r` by point `r / 2000`. -/
theorem cover (i : SN.Idx) : ∃ t : Fin cfg1.N, (cfg1.win 5).flush t = true ∧ i ∈ ((cfg1.win 5).blk t).view.set := by
  have hi0 : (i 0).val < 20000 := (i 0).isLt
  have hi1 : (i 1).val < 512 := (i 1).isLt
  have hN : grid1.N = 10 := N_1
  have ht : (i 0).val / 2000 < grid1.N := by rw [hN]; omega
  obtain ⟨e0, e1, -⟩ := idx_facts ⟨(i 0).val / 2000, ht⟩
  refine ⟨⟨(i 0).val / 2000, ht⟩, flush1_5 _, ?_⟩
  rw [mem_blk]
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, ht⟩ (1 : Fin 2) * 512 ≤ (i 1).val
      ∧ (i 1).val < win1_5.index ⟨(i 0).val / 2000, ht⟩ (1 : Fin 2) * 512 + 512
    rw [e1]; omega

/-- The output array after the launch is the launch's function of the arrays it found. -/
theorem final (V : (c : Dev nD) → (b : Ref sig .tc) → Buf (Elt Ideal) ((c : Thread nD τ).loc b)) (c : Dev nD) :
    ((dat1 (F := Ideal) V c).arrAt 5 cfg1.N : SN.Idx → EReal)
      = tile relu (V c main_v29) (V c main_v19) (V c main_v30) (V c main_v32) (V c main_v34) :=
  (dat1 V c).arrAt_eq_of_cover 5 (tile relu (V c main_v29) (V c main_v19) (V c main_v30) (V c main_v32) (V c main_v34))
    (fun t _ => flushed_eq V c t) cover

end Cert.GraphConv.Region1
end
-- ==== Proof.Region2.lean ====
/-
  What launch 2 of the fused linear layer leaves in its output array, as one function of the arrays it finds.

  The launch walks ten grid points. Point t stages rows 2000·t … 2000·t + 1999 of the neighbour sums A and of the
  features X (all 512 channels of each), the two weight matrices P and Q whole, and the bias row b whole; it computes,
  for each of its 2000 rows r and each of the 512 output channels c,
      (Σ_k A[2000·t + r, k]·P[k, c]) + (Σ_k X[2000·t + r, k]·Q[k, c]) + b[0, c]
  and writes that [2000, 512] block back to rows 2000·t … 2000·t + 1999 of the output.

  Three facts make the output array the function `tile id A X P Q b` of the specification:
   • the body at one entry of its block is that formula (each on-chip product into a zero accumulator is the plain sum
     over the 512 input channels; the bias row is repeated down the rows);
   • entry (r, k) of a row-blocked input's block at point t is entry (2000·t + r, k) of its array, and the whole-staged
     inputs are read where they stand, so the block written back at t is the block of `tile …` at the same place;
   • the ten blocks cover the output: row r is in the block of point r / 2000.
-/
import proofs.«150026_j60559038874107_2_alg».proof.Proof.Gen.KernelIdeal.Frame
import proofs.«150026_j60559038874107_2_alg».proof.Proof.Spec
import proofs.«150026_j60559038874107_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section
namespace Cert.GraphConv.Region2
open Idealize.ShloMosaic Idealize.ShloMosaic.TcCoe Idealize.SL.Sem Cert.KernelIdeal Cert.KernelIdeal.Gen Cert.GraphConv
open Idealize.ShloMosaic.ValueIdx

/-- The all-zero offsets of a whole-buffer access, however they are spelt. -/
theorem hz : (![0, 0] : Fin 2 → Nat) = fun _ => 0 := funext fun a => by fin_cases a <;> rfl

/-- The arithmetic of one grid point at row `r`, channel `c` of its block: the two inner products over the 512 input
    channels, added, plus the bias at channel `c`; this launch applies no rectifier. -/
theorem body_apply (a x : Vec Ideal S2000x512 .f32) (p q : Vec Ideal S512x512 .f32) (b : Vec Ideal S1x512 .f32)
    (r : Fin 2000) (c : Fin 512) :
    k2_pay1 a p x q b (ix2 r c)
      = id (((∑ k : Fin 512, a (ix2 r k) * p (ix2 k c)) + ∑ k : Fin 512, x (ix2 r k) * q (ix2 k c)) + b (ix2 (0 : Fin 1) c)) := by
  unfold k2_pay1
  simp only [shapeCast_self]
  rw [addf_apply, addf_apply]
  exact (congrArg₂ HAdd.hAdd
      (congrArg₂ HAdd.hAdd
        (Cert.PlainDot.matmul_zero_apply dot_S2000x512_S512x512_S2000x512_1_0_0_1_n_n rfl (some .fp32) a p r c)
        (Cert.PlainDot.matmul_zero_apply dot_S2000x512_S512x512_S2000x512_1_0_0_1_n_n rfl (some .fp32) x q r c))
      (broadcastTo_1b_ab_apply b broadcasts_S1x512_S2000x512 r c))

/-- A block's entry is the array's entry where the block lies: an activation `act` of the two inner products and the
    bias, taken over a block's rows and the whole weight matrices, is the launch's function at the array index `i`
    whose row the block's row `r` is and whose channel is `cc`. -/
theorem tile_of_blocks (act : EReal → EReal) (A X : SN.Idx → EReal) (P Q : SW.Idx → EReal) (B : SR.Idx → EReal)
    (a x : Vec Ideal S2000x512 .f32) (p q : Vec Ideal S512x512 .f32) (b : Vec Ideal S1x512 .f32)
    (i : SN.Idx) (r : Fin 2000) (cc : Fin 512)
    (ha : ∀ k : Fin 512, a (ix2 r k) = A (ix2 (i 0) k))
    (hx : ∀ k : Fin 512, x (ix2 r k) = X (ix2 (i 0) k))
    (hp : ∀ k : Fin 512, p (ix2 k cc) = P (ix2 k (i 1)))
    (hq : ∀ k : Fin 512, q (ix2 k cc) = Q (ix2 k (i 1)))
    (hb : b (ix2 (0 : Fin 1) cc) = B (ix2 (0 : Fin 1) (i 1))) :
    act (((∑ k : Fin 512, a (ix2 r k) * p (ix2 k cc)) + ∑ k : Fin 512, x (ix2 r k) * q (ix2 k cc)) + b (ix2 (0 : Fin 1) cc))
      = tile act A X P Q B i := by
  show _ = act (tilePre A X P Q B (i 0) (i 1))
  unfold tilePre
  simp only [ha, hx, hp, hq, hb]

/-- The index maps over the ten grid points: the two row-blocked inputs and the output sit at block row `t`, block
    column 0; the weights and the bias row at block (0, 0). -/
theorem idx_facts : ∀ t : Fin cfg2.N,
    win2_5.index t (0 : Fin 2) = t.val ∧ win2_5.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

section
variable (V : (c : Dev nD) → (b : Ref sig .tc) → Buf (Elt Ideal) ((c : Thread nD τ).loc b)) (c : Dev nD) (t : Fin cfg2.N)

/-- Row `r` of the neighbour sums' block at point `t` is row `2000 t + r` of the array. -/
theorem blockA (r : Fin 2000) (k : Fin 512) (i : SN.Idx) (hi0 : (i 0).val = t.val * 2000 + r.val) (hi1 : (i 1).val = k.val) :
    (iblk2 (F := Ideal) V c 0 t : Vec Ideal S2000x512 .f32) (ix2 r k) = (V c main_v45 : SN.Idx → EReal) i := by
  obtain ⟨-, -, e0, e1, -⟩ := idx_facts t
  unfold iblk2
  rw [View.read_apply]
  show V c main_v45 _ = V c main_v45 _
  refine congrArg _ ?_
  funext a
  apply Fin.ext
  match a with
  | ⟨0, _⟩ => show win2_0.index t (0 : Fin 2) * 2000 + 1 * r.val = (i 0).val; rw [e0, hi0]; omega
  | ⟨1, _⟩ => show win2_0.index t (1 : Fin 2) * 512 + 1 * k.val = (i 1).val; rw [e1, hi1]; omega

end

section
variable (V : (c : Dev nD) → (b : Ref sig .tc) → Buf (Elt Ideal) ((c : Thread nD τ).loc b)) (c : Dev nD) (t : Fin cfg2.N)

/-- Row `r` of the features' block at point `t` is row `2000 t + r` of the array. -/
theorem blockX (r : Fin 2000) (k : Fin 512) (i : SN.Idx) (hi0 : (i 0).val = t.val * 2000 + r.val) (hi1 : (i 1).val = k.val) :
    (iblk2 (F := Ideal) V c 1 t : Vec Ideal S2000x512 .f32) (ix2 r k) = (V c main_v35 : SN.Idx → EReal) i := by
  obtain ⟨-, -, -, -, e0, e1, -⟩ := idx_facts t
  unfold iblk2
  rw [View.read_apply]
  show V c main_v35 _ = V c main_v35 _
  refine congrArg _ ?_
  funext a
  apply Fin.ext
  match a with
  | ⟨0, _⟩ => show win2_1.index t (0 : Fin 2) * 2000 + 1 * r.val = (i 0).val; rw [e0, hi0]; omega
  | ⟨1, _⟩ => show win2_1.index t (1 : Fin 2) * 512 + 1 * k.val = (i 1).val; rw [e1, hi1]; omega

/-- The first weight matrix is staged whole at every point. -/
theorem blockP (k : Fin 512) (n : Fin 512) (i : SW.Idx) (hi0 : (i 0).val = k.val) (hi1 : (i 1).val = n.val) :
    (iblk2 (F := Ideal) V c 2 t : Vec Ideal S512x512 .f32) (ix2 k n) = (V c main_v46 : SW.Idx → EReal) i := by
  obtain ⟨-, -, -, -, -, -, e0, e1, -⟩ := idx_facts t
  unfold iblk2
  rw [View.read_apply]
  show V c main_v46 _ = V c main_v46 _
  refine congrArg _ ?_
  funext a
  apply Fin.ext
  match a with
  | ⟨0, _⟩ => show win2_2.index t (0 : Fin 2) * 512 + 1 * k.val = (i 0).val; rw [e0, hi0]; omega
  | ⟨1, _⟩ => show win2_2.index t (1 : Fin 2) * 512 + 1 * n.val = (i 1).val; rw [e1, hi1]; omega

/-- The second weight matrix is staged whole at every point. -/
theorem blockQ (k : Fin 512) (n : Fin 512) (i : SW.Idx) (hi0 : (i 0).val = k.val) (hi1 : (i 1).val = n.val) :
    (iblk2 (F := Ideal) V c 3 t : Vec Ideal S512x512 .f32) (ix2 k n) = (V c main_v48 : SW.Idx → EReal) i := by
  obtain ⟨-, -, -, -, -, -, -, -, e0, e1, -⟩ := idx_facts t
  unfold iblk2
  rw [View.read_apply]
  show V c main_v48 _ = V c main_v48 _
  refine congrArg _ ?_
  funext a
  apply Fin.ext
  match a with
  | ⟨0, _⟩ => show win2_3.index t (0 : Fin 2) * 512 + 1 * k.val = (i 0).val; rw [e0, hi0]; omega
  | ⟨1, _⟩ => show win2_3.index t (1 : Fin 2) * 512 + 1 * n.val = (i 1).val; rw [e1, hi1]; omega

/-- The bias row is staged whole at every point. -/
theorem blockB (n : Fin 512) (i : SR.Idx) (hi0 : (i 0).val = 0) (hi1 : (i 1).val = n.val) :
    (iblk2 (F := Ideal) V c 4 t : Vec Ideal S1x512 .f32) (ix2 (0 : Fin 1) n) = (V c main_v50 : SR.Idx → EReal) i := by
  obtain ⟨-, -, -, -, -, -, -, -, -, -, e0, e1⟩ := idx_facts t
  unfold iblk2
  rw [View.read_apply]
  show V c main_v50 _ = V c main_v50 _
  refine congrArg _ ?_
  funext a
  apply Fin.ext
  match a with
  | ⟨0, _⟩ => show win2_4.index t (0 : Fin 2) * 1 + 1 * (0 : Fin 1).val = (i 0).val; rw [e0, hi0]; rfl
  | ⟨1, _⟩ => show win2_4.index t (1 : Fin 2) * 512 + 1 * n.val = (i 1).val; rw [e1, hi1]; omega

/-- What point `t` writes back is block `t` of the launch's function of the arrays the launch finds. -/
theorem flushed_eq :
    (dat2 (F := Ideal) V c).flushed 5 t
      = ((cfg2.win 5).blk t).view.read (Elt Ideal)
          (tile id (V c main_v45) (V c main_v35) (V c main_v46) (V c main_v48) (V c main_v50)) := by
  show (cfg2.win 5).cut (grid2.coords t) ((dat2 V c).after 5 t) = _
  rw [after2_5]
  unfold out2_5
  rw [View.canon_unit_zero hz]
  simp only [View.ld_unit_zero (S := S2000x512) hz, View.ld_unit_zero (S := S512x512) hz, View.ld_unit_zero (S := S1x512) hz]
  obtain ⟨e0, e1, -⟩ := idx_facts t
  funext j
  obtain ⟨r, cc, rfl⟩ : ∃ (r : Fin 2000) (cc : Fin 512), j = ix2 r cc := ⟨j 0, j 1, eq_ix2 j⟩
  refine (body_apply (iblk2 V c 0 t) (iblk2 V c 1 t) (iblk2 V c 2 t) (iblk2 V c 3 t) (iblk2 V c 4 t) r cc).trans ?_
  show _ = tile id (V c main_v45) (V c main_v35) (V c main_v46) (V c main_v48) (V c main_v50)
    (((cfg2.win 5).blk t).view.emb (ix2 r cc))
  have h0 : ((((cfg2.win 5).blk t).view.emb (ix2 r cc)) 0).val = t.val * 2000 + r.val := by
    show win2_5.index t (0 : Fin 2) * 2000 + 1 * r.val = _; rw [e0]; omega
  have h1 : ((((cfg2.win 5).blk t).view.emb (ix2 r cc)) 1).val = cc.val := by
    show win2_5.index t (1 : Fin 2) * 512 + 1 * cc.val = _; rw [e1]; omega
  refine tile_of_blocks id (V c main_v45) (V c main_v35) (V c main_v46) (V c main_v48) (V c main_v50)
    (iblk2 V c 0 t) (iblk2 V c 1 t) (iblk2 V c 2 t) (iblk2 V c 3 t) (iblk2 V c 4 t)
    (((cfg2.win 5).blk t).view.emb (ix2 r cc)) r cc (fun k => ?_) (fun k => ?_) (fun k => ?_) (fun k => ?_) ?_
  · exact blockA V c t r k _ h0 rfl
  · exact blockX V c t r k _ h0 rfl
  · exact blockP V c t k cc _ rfl h1
  · exact blockQ V c t k cc _ rfl h1
  · exact blockB V c t cc _ rfl h1

end

/-- An index of the output array lies in point `t`'s block iff each coordinate lies in the block's range on its axis. -/
theorem mem_blk (t : Fin cfg2.N) (i : SN.Idx) :
    i ∈ ((cfg2.win 5).blk t).view.set ↔ ∀ a : Fin 2, win2_5.index t a * S2000x512.size a ≤ (i a).val
      ∧ (i a).val < win2_5.index t a * S2000x512.size a + S2000x512.size a := by
  show i ∈ ((View.whole main_v51).slice (win2_5.rect t)).set ↔ _
  rw [View.set_slice_whole, Rect.mem_set_unit]
  exact Iff.rfl

/-- Every index of the output array is written back by some point: row `r` by point `r / 2000`. -/
theorem cover (i : SN.Idx) : ∃ t : Fin cfg2.N, (cfg2.win 5).flush t = true ∧ i ∈ ((cfg2.win 5).blk t).view.set := by
  have hi0 : (i 0).val < 20000 := (i 0).isLt
  have hi1 : (i 1).val < 512 := (i 1).isLt
  have hN : grid2.N = 10 := N_2
  have ht : (i 0).val / 2000 < grid2.N := by rw [hN]; omega
  obtain ⟨e0, e1, -⟩ := idx_facts ⟨(i 0).val / 2000, ht⟩
  refine ⟨⟨(i 0).val / 2000, ht⟩, flush2_5 _, ?_⟩
  rw [mem_blk]
  intro a
  match a with
  | ⟨0, _⟩ =>
    show win2_5.index ⟨(i 0).val / 2000, ht⟩ (0 : Fin 2) * 2000 ≤ (i 0).val
      ∧ (i 0).val < win2_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_5.index ⟨(i 0).val / 2000, ht⟩ (1 : Fin 2) * 512 ≤ (i 1).val
      ∧ (i 1).val < win2_5.index ⟨(i 0).val / 2000, ht⟩ (1 : Fin 2) * 512 + 512
    rw [e1]; omega

/-- The output array after the launch is the launch's function of the arrays it found. -/
theorem final (V : (c : Dev nD) → (b : Ref sig .tc) → Buf (Elt Ideal) ((c : Thread nD τ).loc b)) (c : Dev nD) :
    ((dat2 (F := Ideal) V c).arrAt 5 cfg2.N : SN.Idx → EReal)
      = tile id (V c main_v45) (V c main_v35) (V c main_v46) (V c main_v48) (V c main_v50) :=
  (dat2 V c).arrAt_eq_of_cover 5 (tile id (V c main_v45) (V c main_v35) (V c main_v46) (V c main_v48) (V c main_v50))
    (fun t _ => flushed_eq V c t) cover

end Cert.GraphConv.Region2
end
-- ==== Proof.KernelValue.lean ====
/-
  The idealized kernel's result buffer, as the network in the fused arrangement.

  @main is three rounds of: a stretch of host operations (the neighbour sums of the current features, and the layer's
  matrices and biases brought into the launch's layout), then a launch that leaves the layer's output in a new
  array.  The final contents of every buffer are a fold through these six segments.  Reading the fold backwards from
  the result buffer: the last launch's output is the tile form of its five operands; each operand is what the last
  stretch computed from the second launch's output, the edge rows computed by the first stretch, and argument arrays
  nothing ever writes; and so on down to the launch memory.  A launch over the transposed matrices and the bias row
  is the layer in its fused arrangement, so the result buffer holds the three-layer network in that arrangement, of
  the argument arrays.
-/
import proofs.«150026_j60559038874107_2_alg».proof.Proof.Gen.KernelIdeal.Frame
import proofs.«150026_j60559038874107_2_alg».proof.Proof.KernelHost
import proofs.«150026_j60559038874107_2_alg».proof.Proof.Region0
import proofs.«150026_j60559038874107_2_alg».proof.Proof.Region1
import proofs.«150026_j60559038874107_2_alg».proof.Proof.Region2
import Idealize.ShloMosaic.Lib.StableHlo.Run

noncomputable section

namespace Cert.GraphConv.KernelValue

open Idealize.ShloMosaic Idealize.ShloMosaic.TcCoe Idealize.SL.Sem Idealize.ShloMosaic.StableHlo
open Cert.KernelIdeal Cert.KernelIdeal.Facts₀ Cert.KernelIdeal.Gen Cert.GraphConv Cert.GraphConv.KernelHost

/-! ## What each stretch of host operations leaves, from any contents `W` it starts from -/

theorem s0_v1 (W : Valuation τ sig (Elt Ideal)) :
    (StableHlo.after (hostOps0 (F := Ideal)) W (Proc.devRef .tc main_v1) : IVec S160000 32) = srcOf (W (Proc.devRef .tc main_arg1)) := by
  after_results <;> rfl

theorem s0_v3 (W : Valuation τ sig (Elt Ideal)) :
    (StableHlo.after (hostOps0 (F := Ideal)) W (Proc.devRef .tc main_v3) : IVec S160000 32) = dstOf (W (Proc.devRef .tc main_arg1)) := by
  after_results <;> rfl

theorem s0_v13 (W : Valuation τ sig (Elt Ideal)) :
    (StableHlo.after (hostOps0 (F := Ideal)) W (Proc.devRef .tc main_v13) : SN.Idx → EReal)
      = aggK (W (Proc.devRef .tc main_arg1)) (W (Proc.devRef .tc main_arg0)) := by
  after_results <;> rfl

theorem s0_v14 (W : Valuation τ sig (Elt Ideal)) :
    (StableHlo.after (hostOps0 (F := Ideal)) W (Proc.devRef .tc main_v14) : SW.Idx → EReal)
      = transpose S512x512 [1, 0] (W (Proc.devRef .tc main_arg2)) Facts₀.transposes_S512x512_S512x512_1_0 := by
  after_results <;> rfl

theorem s0_v16 (W : Valuation τ sig (Elt Ideal)) :
    (StableHlo.after (hostOps0 (F := Ideal)) W (Proc.devRef .tc main_v16) : SW.Idx → EReal)
      = transpose S512x512 [1, 0] (addf (F := Ideal) (φ := .f32) (W (Proc.devRef .tc main_arg4)) (W (Proc.devRef .tc main_arg5))) Facts₀.transposes_S512x512_S512x512_1_0 := by
  after_results <;> rfl

theorem s0_v18 (W : Valuation τ sig (Elt Ideal)) :
    (StableHlo.after (hostOps0 (F := Ideal)) W (Proc.devRef .tc main_v18) : SR.Idx → EReal)
      = shapeCast S1x512 (addf (F := Ideal) (φ := .f32) (W (Proc.devRef .tc main_arg3)) (W (Proc.devRef .tc main_arg6))) Facts₀.shapeCasts_S512_S1x512 := by
  after_results <;> rfl

theorem s0_arg0 (W : Valuation τ sig (Elt Ideal)) :
    StableHlo.after (hostOps0 (F := Ideal)) W (Proc.devRef .tc main_arg0) = W (Proc.devRef .tc main_arg0) := by
  after_results
theorem s0_arg7 (W : Valuation τ sig (Elt Ideal)) :
    StableHlo.after (hostOps0 (F := Ideal)) W (Proc.devRef .tc main_arg7) = W (Proc.devRef .tc main_arg7) := by
  after_results
theorem s0_arg8 (W : Valuation τ sig (Elt Ideal)) :
    StableHlo.after (hostOps0 (F := Ideal)) W (Proc.devRef .tc main_arg8) = W (Proc.devRef .tc main_arg8) := by
  after_results
theorem s0_arg9 (W : Valuation τ sig (Elt Ideal)) :
    StableHlo.after (hostOps0 (F := Ideal)) W (Proc.devRef .tc main_arg9) = W (Proc.devRef .tc main_arg9) := by
  after_results
theorem s0_arg10 (W : Valuation τ sig (Elt Ideal)) :
    StableHlo.after (hostOps0 (F := Ideal)) W (Proc.devRef .tc main_arg10) = W (Proc.devRef .tc main_arg10) := by
  after_results
theorem s0_arg11 (W : Valuation τ sig (Elt Ideal)) :
    StableHlo.after (hostOps0 (F := Ideal)) W (Proc.devRef .tc main_arg11) = W (Proc.devRef .tc main_arg11) := by
  after_results
theorem s0_arg12 (W : Valuation τ sig (Elt Ideal)) :
    StableHlo.after (hostOps0 (F := Ideal)) W (Proc.devRef .tc main_arg12) = W (Proc.devRef .tc main_arg12) := by
  after_results
theorem s0_arg13 (W : Valuation τ sig (Elt Ideal)) :
    StableHlo.after (hostOps0 (F := Ideal)) W (Proc.devRef .tc main_arg13) = W (Proc.devRef .tc main_arg13) := by
  after_results
theorem s0_arg14 (W : Valuation τ sig (Elt Ideal)) :
    StableHlo.after (hostOps0 (F := Ideal)) W (Proc.devRef .tc main_arg14) = W (Proc.devRef .tc main_arg14) := by
  after_results
theorem s0_arg15 (W : Valuation τ sig (Elt Ideal)) :
    StableHlo.after (hostOps0 (F := Ideal)) W (Proc.devRef .tc main_arg15) = W (Proc.devRef .tc main_arg15) := by
  after_results
theorem s0_arg16 (W : Valuation τ sig (Elt Ideal)) :
    StableHlo.after (hostOps0 (F := Ideal)) W (Proc.devRef .tc main_arg16) = W (Proc.devRef .tc main_arg16) := by
  after_results

theorem s1_v29 (W : Valuation τ sig (Elt Ideal)) :
    (StableHlo.after (hostOps1 (F := Ideal)) W (Proc.devRef .tc main_v29) : SN.Idx → EReal)
      = aggOf (W (Proc.devRef .tc main_v1)) (W (Proc.devRef .tc main_v3)) (W (Proc.devRef .tc main_v19)) := by
  after_results <;> rfl

theorem s1_v30 (W : Valuation τ sig (Elt Ideal)) :
    (StableHlo.after (hostOps1 (F := Ideal)) W (Proc.devRef .tc main_v30) : SW.Idx → EReal)
      = transpose S512x512 [1, 0] (W (Proc.devRef .tc main_arg7)) Facts₀.transposes_S512x512_S512x512_1_0 := by
  after_results <;> rfl

theorem s1_v32 (W : Valuation τ sig (Elt Ideal)) :
    (StableHlo.after (hostOps1 (F := Ideal)) W (Proc.devRef .tc main_v32) : SW.Idx → EReal)
      = transpose S512x512 [1, 0] (addf (F := Ideal) (φ := .f32) (W (Proc.devRef .tc main_arg9)) (W (Proc.devRef .tc main_arg10))) Facts₀.transposes_S512x512_S512x512_1_0 := by
  after_results <;> rfl

theorem s1_v34 (W : Valuation τ sig (Elt Ideal)) :
    (StableHlo.after (hostOps1 (F := Ideal)) W (Proc.devRef .tc main_v34) : SR.Idx → EReal)
      = shapeCast S1x512 (addf (F := Ideal) (φ := .f32) (W (Proc.devRef .tc main_arg8)) (W (Proc.devRef .tc main_arg11))) Facts₀.shapeCasts_S512_S1x512 := by
  after_results <;> rfl

theorem s1_v19 (W : Valuation τ sig (Elt Ideal)) :
    StableHlo.after (hostOps1 (F := Ideal)) W (Proc.devRef .tc main_v19) = W (Proc.devRef .tc main_v19) := by
  after_results
theorem s1_v1 (W : Valuation τ sig (Elt Ideal)) :
    StableHlo.after (hostOps1 (F := Ideal)) W (Proc.devRef .tc main_v1) = W (Proc.devRef .tc main_v1) := by
  after_results
theorem s1_v3 (W : Valuation τ sig (Elt Ideal)) :
    StableHlo.after (hostOps1 (F := Ideal)) W (Proc.devRef .tc main_v3) = W (Proc.devRef .tc main_v3) := by
  after_results
theorem s1_arg12 (W : Valuation τ sig (Elt Ideal)) :
    StableHlo.after (hostOps1 (F := Ideal)) W (Proc.devRef .tc main_arg12) = W (Proc.devRef .tc main_arg12) := by
  after_results
theorem s1_arg13 (W : Valuation τ sig (Elt Ideal)) :
    StableHlo.after (hostOps1 (F := Ideal)) W (Proc.devRef .tc main_arg13) = W (Proc.devRef .tc main_arg13) := by
  after_results
theorem s1_arg14 (W : Valuation τ sig (Elt Ideal)) :
    StableHlo.after (hostOps1 (F := Ideal)) W (Proc.devRef .tc main_arg14) = W (Proc.devRef .tc main_arg14) := by
  after_results
theorem s1_arg15 (W : Valuation τ sig (Elt Ideal)) :
    StableHlo.after (hostOps1 (F := Ideal)) W (Proc.devRef .tc main_arg15) = W (Proc.devRef .tc main_arg15) := by
  after_results
theorem s1_arg16 (W : Valuation τ sig (Elt Ideal)) :
    StableHlo.after (hostOps1 (F := Ideal)) W (Proc.devRef .tc main_arg16) = W (Proc.devRef .tc main_arg16) := by
  after_results

theorem s2_v45 (W : Valuation τ sig (Elt Ideal)) :
    (StableHlo.after (hostOps2 (F := Ideal)) W (Proc.devRef .tc main_v45) : SN.Idx → EReal)
      = aggOf (W (Proc.devRef .tc main_v1)) (W (Proc.devRef .tc main_v3)) (W (Proc.devRef .tc main_v35)) := by
  after_results <;> rfl

theorem s2_v46 (W : Valuation τ sig (Elt Ideal)) :
    (StableHlo.after (hostOps2 (F := Ideal)) W (Proc.devRef .tc main_v46) : SW.Idx → EReal)
      = transpose S512x512 [1, 0] (W (Proc.devRef .tc main_arg12)) Facts₀.transposes_S512x512_S512x512_1_0 := by
  after_results <;> rfl

theorem s2_v48 (W : Valuation τ sig (Elt Ideal)) :
    (StableHlo.after (hostOps2 (F := Ideal)) W (Proc.devRef .tc main_v48) : SW.Idx → EReal)
      = transpose S512x512 [1, 0] (addf (F := Ideal) (φ := .f32) (W (Proc.devRef .tc main_arg14)) (W (Proc.devRef .tc main_arg15))) Facts₀.transposes_S512x512_S512x512_1_0 := by
  after_results <;> rfl

theorem s2_v50 (W : Valuation τ sig (Elt Ideal)) :
    (StableHlo.after (hostOps2 (F := Ideal)) W (Proc.devRef .tc main_v50) : SR.Idx → EReal)
      = shapeCast S1x512 (addf (F := Ideal) (φ := .f32) (W (Proc.devRef .tc main_arg13)) (W (Proc.devRef .tc main_arg16))) Facts₀.shapeCasts_S512_S1x512 := by
  after_results <;> rfl

theorem s2_v35 (W : Valuation τ sig (Elt Ideal)) :
    StableHlo.after (hostOps2 (F := Ideal)) W (Proc.devRef .tc main_v35) = W (Proc.devRef .tc main_v35) := by
  after_results

/-! ## The fold read backwards -/

variable (m : (ℓ : Loc nD τ sig) → Buf (Elt Ideal) ℓ) (ρ : Dev nD → PrngReg) (c : Dev nD)

/-- The launch contents of an argument array. -/
abbrev at0 (b : Ref sig .tc) : Buf (Elt Ideal) ((c : Thread nD τ).loc b) := m ((c : Thread nD τ).loc b)

/-- The features and the edge list at launch, and the three layers' parameters. -/
abbrev X0 : SN.Idx → EReal := at0 m c main_arg0
abbrev E0 : IVec S2x160000 32 := at0 m c main_arg1
abbrev p1 : Params := ⟨at0 m c main_arg2, at0 m c main_arg3, at0 m c main_arg4, at0 m c main_arg5, at0 m c main_arg6⟩
abbrev p2 : Params := ⟨at0 m c main_arg7, at0 m c main_arg8, at0 m c main_arg9, at0 m c main_arg10, at0 m c main_arg11⟩
abbrev p3 : Params := ⟨at0 m c main_arg12, at0 m c main_arg13, at0 m c main_arg14, at0 m c main_arg15, at0 m c main_arg16⟩

/-- The edge rows the first stretch computes are still there at every later boundary. -/
theorem W2_v1 : (W2 m ρ c (Proc.devRef .tc main_v1) : IVec S160000 32) = srcOf (E0 m c) :=
  (W2_of_ne m ρ c main_v1 (by decide)).trans (s0_v1 (W0 m ρ c))
theorem W2_v3 : (W2 m ρ c (Proc.devRef .tc main_v3) : IVec S160000 32) = dstOf (E0 m c) :=
  (W2_of_ne m ρ c main_v3 (by decide)).trans (s0_v3 (W0 m ρ c))
theorem W4_v1 : (W4 m ρ c (Proc.devRef .tc main_v1) : IVec S160000 32) = srcOf (E0 m c) :=
  ((W4_of_ne m ρ c main_v1 (by decide)).trans (s1_v1 (W2 m ρ c))).trans (W2_v1 m ρ c)
theorem W4_v3 : (W4 m ρ c (Proc.devRef .tc main_v3) : IVec S160000 32) = dstOf (E0 m c) :=
  ((W4_of_ne m ρ c main_v3 (by decide)).trans (s1_v3 (W2 m ρ c))).trans (W2_v3 m ρ c)

theorem W2_arg7 : W2 m ρ c (Proc.devRef .tc main_arg7) = at0 m c main_arg7 :=
  (W2_of_ne m ρ c main_arg7 (by decide)).trans (s0_arg7 (W0 m ρ c))
theorem W2_arg8 : W2 m ρ c (Proc.devRef .tc main_arg8) = at0 m c main_arg8 :=
  (W2_of_ne m ρ c main_arg8 (by decide)).trans (s0_arg8 (W0 m ρ c))
theorem W2_arg9 : W2 m ρ c (Proc.devRef .tc main_arg9) = at0 m c main_arg9 :=
  (W2_of_ne m ρ c main_arg9 (by decide)).trans (s0_arg9 (W0 m ρ c))
theorem W2_arg10 : W2 m ρ c (Proc.devRef .tc main_arg10) = at0 m c main_arg10 :=
  (W2_of_ne m ρ c main_arg10 (by decide)).trans (s0_arg10 (W0 m ρ c))
theorem W2_arg11 : W2 m ρ c (Proc.devRef .tc main_arg11) = at0 m c main_arg11 :=
  (W2_of_ne m ρ c main_arg11 (by decide)).trans (s0_arg11 (W0 m ρ c))
theorem W2_arg12 : W2 m ρ c (Proc.devRef .tc main_arg12) = at0 m c main_arg12 :=
  (W2_of_ne m ρ c main_arg12 (by decide)).trans (s0_arg12 (W0 m ρ c))
theorem W2_arg13 : W2 m ρ c (Proc.devRef .tc main_arg13) = at0 m c main_arg13 :=
  (W2_of_ne m ρ c main_arg13 (by decide)).trans (s0_arg13 (W0 m ρ c))
theorem W2_arg14 : W2 m ρ c (Proc.devRef .tc main_arg14) = at0 m c main_arg14 :=
  (W2_of_ne m ρ c main_arg14 (by decide)).trans (s0_arg14 (W0 m ρ c))
theorem W2_arg15 : W2 m ρ c (Proc.devRef .tc main_arg15) = at0 m c main_arg15 :=
  (W2_of_ne m ρ c main_arg15 (by decide)).trans (s0_arg15 (W0 m ρ c))
theorem W2_arg16 : W2 m ρ c (Proc.devRef .tc main_arg16) = at0 m c main_arg16 :=
  (W2_of_ne m ρ c main_arg16 (by decide)).trans (s0_arg16 (W0 m ρ c))
theorem W4_arg12 : W4 m ρ c (Proc.devRef .tc main_arg12) = at0 m c main_arg12 :=
  ((W4_of_ne m ρ c main_arg12 (by decide)).trans (s1_arg12 (W2 m ρ c))).trans (W2_arg12 m ρ c)
theorem W4_arg13 : W4 m ρ c (Proc.devRef .tc main_arg13) = at0 m c main_arg13 :=
  ((W4_of_ne m ρ c main_arg13 (by decide)).trans (s1_arg13 (W2 m ρ c))).trans (W2_arg13 m ρ c)
theorem W4_arg14 : W4 m ρ c (Proc.devRef .tc main_arg14) = at0 m c main_arg14 :=
  ((W4_of_ne m ρ c main_arg14 (by decide)).trans (s1_arg14 (W2 m ρ c))).trans (W2_arg14 m ρ c)
theorem W4_arg15 : W4 m ρ c (Proc.devRef .tc main_arg15) = at0 m c main_arg15 :=
  ((W4_of_ne m ρ c main_arg15 (by decide)).trans (s1_arg15 (W2 m ρ c))).trans (W2_arg15 m ρ c)
theorem W4_arg16 : W4 m ρ c (Proc.devRef .tc main_arg16) = at0 m c main_arg16 :=
  ((W4_of_ne m ρ c main_arg16 (by decide)).trans (s1_arg16 (W2 m ρ c))).trans (W2_arg16 m ρ c)

/-- After the first launch: the first layer of the features. -/
theorem layer1 : (W2 m ρ c (Proc.devRef .tc main_v19) : SN.Idx → EReal)
    = fused relu (p1 m c) (aggK (E0 m c) (X0 m c)) (X0 m c) := by
  refine ((W2_arr m ρ c 5).trans (Region0.final (V1 m ρ) c)).trans ?_
  have e13 : (V1 m ρ c main_v13 : SN.Idx → EReal) = aggK (E0 m c) (X0 m c) := s0_v13 (W0 m ρ c)
  have e0 : (V1 m ρ c main_arg0 : SN.Idx → EReal) = X0 m c := s0_arg0 (W0 m ρ c)
  have e14 : (V1 m ρ c main_v14 : SW.Idx → EReal) = transpose S512x512 [1, 0] (p1 m c).wrel Facts₀.transposes_S512x512_S512x512_1_0 :=
    s0_v14 (W0 m ρ c)
  have e16 : (V1 m ρ c main_v16 : SW.Idx → EReal)
      = transpose S512x512 [1, 0] (addf (F := Ideal) (φ := .f32) (p1 m c).wroot (p1 m c).wlin) Facts₀.transposes_S512x512_S512x512_1_0 :=
    s0_v16 (W0 m ρ c)
  have e18 : (V1 m ρ c main_v18 : SR.Idx → EReal)
      = shapeCast S1x512 (addf (F := Ideal) (φ := .f32) (p1 m c).brel (p1 m c).blin) Facts₀.shapeCasts_S512_S1x512 :=
    s0_v18 (W0 m ρ c)
  rw [e13, e0, e14, e16, e18]
  exact tile_eq_fused relu _ _ (p1 m c) _ _

/-- After the second launch: the second layer of what the first launch left. -/
theorem layer2 : (W4 m ρ c (Proc.devRef .tc main_v35) : SN.Idx → EReal)
    = fused relu (p2 m c) (aggK (E0 m c) (W2 m ρ c (Proc.devRef .tc main_v19))) (W2 m ρ c (Proc.devRef .tc main_v19)) := by
  refine ((W4_arr m ρ c 5).trans (Region1.final (V3 m ρ) c)).trans ?_
  have e29 : (V3 m ρ c main_v29 : SN.Idx → EReal) = aggK (E0 m c) (W2 m ρ c (Proc.devRef .tc main_v19)) := by
    refine (s1_v29 (W2 m ρ c)).trans ?_
    rw [W2_v1 m ρ c, W2_v3 m ρ c]
    rfl
  have e19 : (V3 m ρ c main_v19 : SN.Idx → EReal) = W2 m ρ c (Proc.devRef .tc main_v19) := s1_v19 (W2 m ρ c)
  have e30 : (V3 m ρ c main_v30 : SW.Idx → EReal) = transpose S512x512 [1, 0] (p2 m c).wrel Facts₀.transposes_S512x512_S512x512_1_0 := by
    refine (s1_v30 (W2 m ρ c)).trans ?_
    rw [W2_arg7 m ρ c]
  have e32 : (V3 m ρ c main_v32 : SW.Idx → EReal)
      = transpose S512x512 [1, 0] (addf (F := Ideal) (φ := .f32) (p2 m c).wroot (p2 m c).wlin) Facts₀.transposes_S512x512_S512x512_1_0 := by
    refine (s1_v32 (W2 m ρ c)).trans ?_
    rw [W2_arg9 m ρ c, W2_arg10 m ρ c]
  have e34 : (V3 m ρ c main_v34 : SR.Idx → EReal)
      = shapeCast S1x512 (addf (F := Ideal) (φ := .f32) (p2 m c).brel (p2 m c).blin) Facts₀.shapeCasts_S512_S1x512 := by
    refine (s1_v34 (W2 m ρ c)).trans ?_
    rw [W2_arg8 m ρ c, W2_arg11 m ρ c]
  rw [e29, e19, e30, e32, e34]
  exact tile_eq_fused relu _ _ (p2 m c) _ _

/-- After the third launch: the third layer, with no rectifier, of what the second launch left. -/
theorem layer3 : (W6 m ρ c (Proc.devRef .tc main_v51) : SN.Idx → EReal)
    = fused id (p3 m c) (aggK (E0 m c) (W4 m ρ c (Proc.devRef .tc main_v35))) (W4 m ρ c (Proc.devRef .tc main_v35)) := by
  refine ((W6_arr m ρ c 5).trans (Region2.final (V5 m ρ) c)).trans ?_
  have e45 : (V5 m ρ c main_v45 : SN.Idx → EReal) = aggK (E0 m c) (W4 m ρ c (Proc.devRef .tc main_v35)) := by
    refine (s2_v45 (W4 m ρ c)).trans ?_
    rw [W4_v1 m ρ c, W4_v3 m ρ c]
    rfl
  have e35 : (V5 m ρ c main_v35 : SN.Idx → EReal) = W4 m ρ c (Proc.devRef .tc main_v35) := s2_v35 (W4 m ρ c)
  have e46 : (V5 m ρ c main_v46 : SW.Idx → EReal) = transpose S512x512 [1, 0] (p3 m c).wrel Facts₀.transposes_S512x512_S512x512_1_0 := by
    refine (s2_v46 (W4 m ρ c)).trans ?_
    rw [W4_arg12 m ρ c]
  have e48 : (V5 m ρ c main_v48 : SW.Idx → EReal)
      = transpose S512x512 [1, 0] (addf (F := Ideal) (φ := .f32) (p3 m c).wroot (p3 m c).wlin) Facts₀.transposes_S512x512_S512x512_1_0 := by
    refine (s2_v48 (W4 m ρ c)).trans ?_
    rw [W4_arg14 m ρ c, W4_arg15 m ρ c]
  have e50 : (V5 m ρ c main_v50 : SR.Idx → EReal)
      = shapeCast S1x512 (addf (F := Ideal) (φ := .f32) (p3 m c).brel (p3 m c).blin) Facts₀.shapeCasts_S512_S1x512 := by
    refine (s2_v50 (W4 m ρ c)).trans ?_
    rw [W4_arg13 m ρ c, W4_arg16 m ρ c]
  rw [e45, e35, e46, e48, e50]
  exact tile_eq_fused id _ _ (p3 m c) _ _

/-- The result buffer holds the three-layer network, in the fused arrangement, of the argument arrays. -/
theorem result : (W6 m ρ c (Proc.devRef .tc main_v51) : SN.Idx → EReal)
    = net fused (aggK (E0 m c)) (p1 m c) (p2 m c) (p3 m c) (X0 m c) := by
  rw [layer3 m ρ c, layer2 m ρ c, layer1 m ρ c]
  rfl

end Cert.GraphConv.KernelValue

end
-- ==== Proof.RefValue.lean ====
/-
  The reference program's result is the three-layer network of the specification, each layer in the SPLIT arrangement.

  One layer of the reference takes the features X and their neighbour sums A (the reference's gather of the rows of X
  along the edges followed by its scatter-add into the nodes; this file never opens that pair, it is one function of
  X and the edge list) and computes, entry by entry,

      ((A·W_relᵀ + b_rel) + X·W_rootᵀ) + (X·W_linᵀ + b_lin),

  where each product contracts the channel axis of the left factor with the first axis of the TRANSPOSED weight matrix,
  and each bias is first laid out as a row [1, 512] and then repeated down the 20000 nodes.  Read at (r, c):

    * a product against a transposed matrix is Σ_k L[r, k] · Wᵀ[k, c] = Σ_k L[r, k] · W[c, k], the inner product of row r
      of the left factor with row c of W (`dotT_apply`);
    * the repeated bias row reads the bias at c (`biasRows_apply`);
    * the entrywise sums are sums of extended reals.

  So the layer before its activation is `splitPre` at every (r, c) (`pre_apply`).  The first two layers end with the
  entrywise maximum against a splat of the constant whose bit pattern is that of +0.0, which is the real number 0, so
  they are `split relu` (`layer_relu`); the last layer has no activation and is `split id` (`layer_id`).

  The three layers of the reference are the SAME operations applied to different operands: layer 1 to the input
  features and the first five parameters, layer 2 to layer 1's output and the next five, layer 3 to layer 2's output
  and the last five; and the neighbour sums of layers 2 and 3 are the same function of their features and the edge
  list as layer 1's (the index arithmetic on the edge list is repeated verbatim in each layer).  These identifications
  hold by unfolding the names of the stages (`stage28` … `stage77`); composing them with the layer lemmas gives the
  network (`ref_value`).
-/
import proofs.«150026_j60559038874107_2_alg».proof.Proof.Gen.ReferenceIdeal.Read
import proofs.«150026_j60559038874107_2_alg».proof.Proof.Spec
import Idealize.ShloMosaic.Lib.ValueIdx
import Idealize.ShloMosaic.Lib.Pipeline.Value
import Idealize.ShloMosaic.PureOps.Ideal.Laws

noncomputable section

namespace Cert.GraphConv.RefValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.Read Cert.GraphConv

abbrev TN : Type := (⟨S20000x512, .f32⟩ : BufTy).Contents (Elt Ideal)
abbrev TW : Type := (⟨S512x512, .f32⟩ : BufTy).Contents (Elt Ideal)
abbrev TB : Type := (⟨S512, .f32⟩ : BufTy).Contents (Elt Ideal)
abbrev TE : Type := (⟨S2x160000, .i32⟩ : BufTy).Contents (Elt Ideal)

/-- The neighbour sums of the features X over the edges E, as the reference's host operations compute them. -/
abbrev aggR (E : (⟨S2x160000, .i32⟩ : BufTy).Contents (Elt Ideal)) (X : SN.Idx → EReal) : SN.Idx → EReal :=
  val_main_v13 (F := Ideal) X E

/-- Features against a weight matrix that is first transposed: at `(r, c)` row `r` of the features against row `c`
    of the matrix. -/
theorem dotT_apply (X : TN) (W : TW) (r : Fin 20000) (c : Fin 512) :
    val_main_v20 (F := Ideal) X W (ix2 r c) = rowDot X W r c := by
  rw [val_main_v20_apply]
  unfold rowDot
  refine Finset.sum_congr rfl fun k _ => ?_
  rw [val_main_v19_apply]
  have e1 : lidx_main_v20 (ix2 r c) k = ix2 r k :=
    funext fun a => by match a with | ⟨0, _⟩ => rfl | ⟨1, _⟩ => rfl
  have e2 : idx_main_v19 (ridx_main_v20 (ix2 r c) k) = ix2 c k :=
    funext fun a => by match a with | ⟨0, _⟩ => rfl | ⟨1, _⟩ => rfl
  rw [e1, e2]

/-- A bias laid as a row and repeated down the nodes: at `(r, c)` the bias at `c`. -/
theorem biasRows_apply (b : TB) (r : Fin 20000) (c : Fin 512) :
    val_main_v17 (F := Ideal) b (ix2 r c) = b (ix1 c) := by
  rw [val_main_v17_apply, val_main_v16_apply]
  have e : idx_main_v16 (idx_main_v17 (ix2 r c)) = ix1 c :=
    funext fun a => by match a with | ⟨0, _⟩ => rfl
  rw [e]

/-- One layer before its activation, on the host: the neighbour sums against the first matrix plus the first bias,
    plus the features against the second matrix, plus the features against the third matrix plus the second bias. -/
def pre (A X : TN) (W1 : TW) (b1 : TB) (W2 W3 : TW) (b2 : TB) : TN :=
  addf (F := Ideal) (s := S20000x512) (φ := .f32) (addf (F := Ideal) (s := S20000x512) (φ := .f32) (addf (F := Ideal) (s := S20000x512) (φ := .f32) (val_main_v20 (F := Ideal) A W1) (val_main_v17 (F := Ideal) b1))
      (val_main_v20 (F := Ideal) X W2))
    (addf (F := Ideal) (s := S20000x512) (φ := .f32) (val_main_v20 (F := Ideal) X W3) (val_main_v17 (F := Ideal) b2))

theorem pre_apply (A X : TN) (W1 : TW) (b1 : TB) (W2 W3 : TW) (b2 : TB) (r : Fin 20000) (c : Fin 512) :
    pre A X W1 b1 W2 W3 b2 (ix2 r c) = splitPre ⟨W1, b1, W2, W3, b2⟩ A X r c := by
  show FloatOps.addf (F := Ideal) (φ := .f32) (FloatOps.addf (F := Ideal) (φ := .f32) (FloatOps.addf (F := Ideal) (φ := .f32) (val_main_v20 (F := Ideal) A W1 (ix2 r c))
      (val_main_v17 (F := Ideal) b1 (ix2 r c))) (val_main_v20 (F := Ideal) X W2 (ix2 r c)))
    (FloatOps.addf (F := Ideal) (φ := .f32) (val_main_v20 (F := Ideal) X W3 (ix2 r c)) (val_main_v17 (F := Ideal) b2 (ix2 r c))) = _
  rw [dotT_apply A W1, dotT_apply X W2, dotT_apply X W3, biasRows_apply b1, biasRows_apply b2]
  rfl

/-- The host's rectifier: the maximum with a splat of the constant zero. -/
def act (P : TN) : TN :=
  maximumf (F := Ideal) (s := S20000x512) (φ := .f32) P (val_main_call0_v0 (F := Ideal))

theorem act_apply (P : TN) (i : SN.Idx) : act P i = relu (P i) := by
  show FloatOps.maximumf (F := Ideal) (φ := .f32) (P i) (val_main_call0_v0 (F := Ideal) i) = _
  rw [val_main_call0_v0_apply, val_main_call0_cst_apply, Ideal.ofBits_def, Ideal.ofBits_zero_f32]
  rfl

theorem layer_relu (A X : TN) (W1 : TW) (b1 : TB) (W2 W3 : TW) (b2 : TB) :
    (act (pre A X W1 b1 W2 W3 b2) : SN.Idx → EReal) = split relu ⟨W1, b1, W2, W3, b2⟩ A X := by
  funext i
  obtain ⟨r, c, rfl⟩ : ∃ (r : Fin 20000) (c : Fin 512), i = ix2 r c := ⟨i 0, i 1, eq_ix2 i⟩
  rw [act_apply, pre_apply]
  rfl

theorem layer_id (A X : TN) (W1 : TW) (b1 : TB) (W2 W3 : TW) (b2 : TB) :
    (pre A X W1 b1 W2 W3 b2 : SN.Idx → EReal) = split id ⟨W1, b1, W2, W3, b2⟩ A X := by
  funext i
  obtain ⟨r, c, rfl⟩ : ∃ (r : Fin 20000) (c : Fin 512), i = ix2 r c := ⟨i 0, i 1, eq_ix2 i⟩
  rw [pre_apply]
  rfl

theorem stage28 (x0 : TN) (x1 : TE) (x2 : TW) (x3 : TB) (x4 x5 : TW) (x6 : TB) :
    val_main_v28 (F := Ideal) x0 x1 x2 x3 x4 x5 x6 = act (pre (val_main_v13 (F := Ideal) x0 x1) x0 x2 x3 x4 x5 x6) := rfl

theorem stage38 (x0 : TN) (x1 : TE) (x2 : TW) (x3 : TB) (x4 x5 : TW) (x6 : TB) :
    val_main_v38 (F := Ideal) x0 x1 x2 x3 x4 x5 x6 = val_main_v13 (F := Ideal) (val_main_v28 (F := Ideal) x0 x1 x2 x3 x4 x5 x6) x1 := rfl

theorem stage53 (x0 : TN) (x1 : TE) (x2 : TW) (x3 : TB) (x4 x5 : TW) (x6 : TB) (x7 : TW) (x8 : TB) (x9 x10 : TW) (x11 : TB) :
    val_main_v53 (F := Ideal) x0 x1 x2 x3 x4 x5 x6 x7 x8 x9 x10 x11
      = act (pre (val_main_v38 (F := Ideal) x0 x1 x2 x3 x4 x5 x6) (val_main_v28 (F := Ideal) x0 x1 x2 x3 x4 x5 x6) x7 x8 x9 x10 x11) := rfl

theorem stage63 (x0 : TN) (x1 : TE) (x2 : TW) (x3 : TB) (x4 x5 : TW) (x6 : TB) (x7 : TW) (x8 : TB) (x9 x10 : TW) (x11 : TB) :
    val_main_v63 (F := Ideal) x0 x1 x2 x3 x4 x5 x6 x7 x8 x9 x10 x11 = val_main_v13 (F := Ideal) (val_main_v53 (F := Ideal) x0 x1 x2 x3 x4 x5 x6 x7 x8 x9 x10 x11) x1 := rfl

theorem stage77 (x0 : TN) (x1 : TE) (x2 : TW) (x3 : TB) (x4 x5 : TW) (x6 : TB) (x7 : TW) (x8 : TB) (x9 x10 : TW) (x11 : TB) (x12 : TW) (x13 : TB) (x14 x15 : TW) (x16 : TB) :
    val_main_v77 (F := Ideal) x0 x1 x2 x3 x4 x5 x6 x7 x8 x9 x10 x11 x12 x13 x14 x15 x16
      = pre (val_main_v63 (F := Ideal) x0 x1 x2 x3 x4 x5 x6 x7 x8 x9 x10 x11) (val_main_v53 (F := Ideal) x0 x1 x2 x3 x4 x5 x6 x7 x8 x9 x10 x11) x12 x13 x14 x15 x16 := rfl

/-- The first layer's output is the split layer with the rectifier, on the input features and their neighbour sums. -/
theorem layer1 (x0 : TN) (x1 : TE) (x2 : TW) (x3 : TB) (x4 x5 : TW) (x6 : TB) :
    (val_main_v28 (F := Ideal) x0 x1 x2 x3 x4 x5 x6 : SN.Idx → EReal) = split relu ⟨x2, x3, x4, x5, x6⟩ (aggR x1 x0) x0 := by
  rw [stage28, layer_relu]

/-- The second layer's output, on the first layer's output and its neighbour sums. -/
theorem layer2 (x0 : TN) (x1 : TE) (x2 : TW) (x3 : TB) (x4 x5 : TW) (x6 : TB) (x7 : TW) (x8 : TB) (x9 x10 : TW) (x11 : TB) :
    (val_main_v53 (F := Ideal) x0 x1 x2 x3 x4 x5 x6 x7 x8 x9 x10 x11 : SN.Idx → EReal)
      = split relu ⟨x7, x8, x9, x10, x11⟩ (aggR x1 (val_main_v28 (F := Ideal) x0 x1 x2 x3 x4 x5 x6))
          (val_main_v28 (F := Ideal) x0 x1 x2 x3 x4 x5 x6) := by
  rw [stage53, layer_relu, stage38]

/-- The third layer's output, on the second layer's output and its neighbour sums; no rectifier. -/
theorem layer3 (x0 : TN) (x1 : TE) (x2 : TW) (x3 : TB) (x4 x5 : TW) (x6 : TB) (x7 : TW) (x8 : TB) (x9 x10 : TW) (x11 : TB) (x12 : TW) (x13 : TB) (x14 x15 : TW) (x16 : TB) :
    (val_main_v77 (F := Ideal) x0 x1 x2 x3 x4 x5 x6 x7 x8 x9 x10 x11 x12 x13 x14 x15 x16 : SN.Idx → EReal)
      = split id ⟨x12, x13, x14, x15, x16⟩ (aggR x1 (val_main_v53 (F := Ideal) x0 x1 x2 x3 x4 x5 x6 x7 x8 x9 x10 x11))
          (val_main_v53 (F := Ideal) x0 x1 x2 x3 x4 x5 x6 x7 x8 x9 x10 x11) := by
  rw [stage77, layer_id, stage63]

theorem ref_value (x0 : (⟨S20000x512, .f32⟩ : BufTy).Contents (Elt Ideal)) (x1 : (⟨S2x160000, .i32⟩ : BufTy).Contents (Elt Ideal))
    (x2 : (⟨S512x512, .f32⟩ : BufTy).Contents (Elt Ideal)) (x3 : (⟨S512, .f32⟩ : BufTy).Contents (Elt Ideal))
    (x4 x5 : (⟨S512x512, .f32⟩ : BufTy).Contents (Elt Ideal)) (x6 : (⟨S512, .f32⟩ : BufTy).Contents (Elt Ideal))
    (x7 : (⟨S512x512, .f32⟩ : BufTy).Contents (Elt Ideal)) (x8 : (⟨S512, .f32⟩ : BufTy).Contents (Elt Ideal))
    (x9 x10 : (⟨S512x512, .f32⟩ : BufTy).Contents (Elt Ideal)) (x11 : (⟨S512, .f32⟩ : BufTy).Contents (Elt Ideal))
    (x12 : (⟨S512x512, .f32⟩ : BufTy).Contents (Elt Ideal)) (x13 : (⟨S512, .f32⟩ : BufTy).Contents (Elt Ideal))
    (x14 x15 : (⟨S512x512, .f32⟩ : BufTy).Contents (Elt Ideal)) (x16 : (⟨S512, .f32⟩ : BufTy).Contents (Elt Ideal)) :
    (val_main_v77 (F := Ideal) x0 x1 x2 x3 x4 x5 x6 x7 x8 x9 x10 x11 x12 x13 x14 x15 x16 : SN.Idx → EReal)
      = net split (aggR x1) ⟨x2, x3, x4, x5, x6⟩ ⟨x7, x8, x9, x10, x11⟩ ⟨x12, x13, x14, x15, x16⟩ x0 := by
  unfold net
  dsimp only
  rw [layer3, layer2, layer1]

end Cert.GraphConv.RefValue

end
-- ==== Proof.Finite.lean ====
/-
  The precondition read back: finite inputs are real numbers.

  At the ideal instance a float is an extended real.  The printed precondition takes, for each of the sixteen
  float arguments, the absolute value of every entry (the larger of the entry and its negation), compares it
  strictly below the extended real the word 0x7F800000 denotes (the top element, "plus infinity"), reduces the
  resulting one-bit array by "and" over all axes starting from 1, and then joins the sixteen one-bit results by
  "and".  The hypothesis says the final bit is 1.

  A conjunction of bits is 1 only when both bits are 1, so each of the sixteen all-reductions is 1; an
  all-reduction by "and" that came out 1 met a 1 at every index, so every entry x satisfies max x (-x) < top.
  Of the three kinds of extended real, the bottom element has negation top, so max x (-x) = top, and the top
  element has max x (-x) = top; neither is strictly below top.  So x is a real number.
-/
import proofs.«150026_j60559038874107_2_alg».proof.Pre_finite_inputs
import proofs.«150026_j60559038874107_2_alg».proof.Proof.LibRealLaw
import Idealize.ShloMosaic.Lib.ReduceAll
import Idealize.ShloMosaic.Lib.ValueIdx
import Idealize.ShloMosaic.PureOps.Ideal

noncomputable section
namespace Cert.GraphConv.Finite
open Idealize.ShloMosaic Cert.Pre_finite_inputs Cert.Scores

/-- The word 0x7F800000 denotes the top extended real. -/
theorem ofBits_inf : Ideal.ofBits .f32 0x7F800000#32 = (⊤ : EReal) := by
  simp [Ideal.ofBits, Ideal.ieee]

/-- An extended real whose absolute value compares strictly below plus infinity is a real number. -/
theorem isReal_of_abs_lt (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact ⟨r, rfl⟩
  | top => simp [Ideal.cmp] at h

/-- The scalar shape has exactly one index. -/
instance subsingleton_scalar_idx : Subsingleton S_.Idx := ⟨fun a b => funext fun d => d.elim0⟩

/-- An all-reduction by "and" of "absolute value below plus infinity" that came out 1: every entry is real. -/
theorem all_real {s : Shape} {axes : List (Fin s.rank)} (a : FVec Ideal s .f32)
    (dims : Fin S_.rank → Fin s.rank) (hb : S_.BroadcastsInDim s dims) (hr : s.ReducesTo axes S_) (h0 : 0 < S_.numel)
    (h : Host.reduce IntOp.andi
          (cmpf .olt (Host.absf a) (broadcastInDim s dims hb (constant (F := Ideal) S_ .f32 0x7F800000#32)))
          (constantI S_ 1 1#1) hr h0 ValueIdx.ix0 = 1#1) :
    ∀ i, IsReal (a i) := fun i =>
  isReal_of_abs_lt (a i) (Host.reduce_andi_all _ _ hr h0 ValueIdx.ix0 h i)

/-- A conjunction of two one-bit scalars that is 1: both are 1. -/
theorem andi_ix0 (x y : IVec S_ 1) (h : andi x y ValueIdx.ix0 = 1#1) :
    x ValueIdx.ix0 = 1#1 ∧ y ValueIdx.ix0 = 1#1 :=
  IntOp.andi_eq_one.1 h

variable [Cert.Pre_finite_inputs.Facts]

theorem real_of_finite (a0 : FVec Ideal S20000x512 .f32) (a1 : IVec S2x160000 32) (a2 : FVec Ideal S512x512 .f32)
    (a3 : FVec Ideal S512 .f32) (a4 a5 : FVec Ideal S512x512 .f32) (a6 : FVec Ideal S512 .f32)
    (a7 : FVec Ideal S512x512 .f32) (a8 : FVec Ideal S512 .f32) (a9 a10 : FVec Ideal S512x512 .f32) (a11 : FVec Ideal S512 .f32)
    (a12 : FVec Ideal S512x512 .f32) (a13 : FVec Ideal S512 .f32) (a14 a15 : FVec Ideal S512x512 .f32) (a16 : FVec Ideal S512 .f32)
    (h : fn (F := Ideal) a0 a1 a2 a3 a4 a5 a6 a7 a8 a9 a10 a11 a12 a13 a14 a15 a16 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i)) ∧ (∀ i, IsReal (a10 i))
      ∧ (∀ i, IsReal (a11 i)) ∧ (∀ i, IsReal (a12 i)) ∧ (∀ i, IsReal (a13 i)) ∧ (∀ i, IsReal (a14 i)) ∧ (∀ i, IsReal (a15 i))
      ∧ (∀ i, IsReal (a16 i)) := by
  have e := congrFun h ValueIdx.ix0
  unfold fn fn_part1 fn_part2 fn_part3 fn_part4 at e
  dsimp only at e
  obtain ⟨e, h16⟩ := andi_ix0 _ _ e
  obtain ⟨e, h15⟩ := andi_ix0 _ _ e
  obtain ⟨e, h14⟩ := andi_ix0 _ _ e
  obtain ⟨e, h13⟩ := andi_ix0 _ _ e
  obtain ⟨e, h12⟩ := andi_ix0 _ _ e
  obtain ⟨e, h11⟩ := andi_ix0 _ _ e
  obtain ⟨e, h10⟩ := andi_ix0 _ _ e
  obtain ⟨e, h9⟩ := andi_ix0 _ _ e
  obtain ⟨e, h8⟩ := andi_ix0 _ _ e
  obtain ⟨e, h7⟩ := andi_ix0 _ _ e
  obtain ⟨e, h6⟩ := andi_ix0 _ _ e
  obtain ⟨e, h5⟩ := andi_ix0 _ _ e
  obtain ⟨e, h4⟩ := andi_ix0 _ _ e
  obtain ⟨e, h3⟩ := andi_ix0 _ _ e
  obtain ⟨h0, h2⟩ := andi_ix0 _ _ e
  exact ⟨all_real a0 _ _ _ _ h0, all_real a2 _ _ _ _ h2, all_real a3 _ _ _ _ h3, all_real a4 _ _ _ _ h4,
    all_real a5 _ _ _ _ h5, all_real a6 _ _ _ _ h6, all_real a7 _ _ _ _ h7, all_real a8 _ _ _ _ h8,
    all_real a9 _ _ _ _ h9, all_real a10 _ _ _ _ h10, all_real a11 _ _ _ _ h11, all_real a12 _ _ _ _ h12,
    all_real a13 _ _ _ _ h13, all_real a14 _ _ _ _ h14, all_real a15 _ _ _ _ h15, all_real a16 _ _ _ _ h16⟩

end Cert.GraphConv.Finite
end
-- ==== Proof.Bridge.lean ====
/-
  The two programs' neighbour sums are one function, and the precondition makes every parameter real.

  Both programs compute the neighbour sums by the same operations on the same operands (the edge list's two rows, the
  source rows shifted by 20000 where negative, a gather of the features' rows, an accumulating scatter into zeros), so
  the two terms are equal by unfolding their names.  The precondition says every float argument is finite, that is,
  every entry is a real number: the features, and all five parameters of each of the three layers.
-/
import proofs.«150026_j60559038874107_2_alg».proof.Defs
import proofs.«150026_j60559038874107_2_alg».proof.Proof.Gen.Pre_finite_inputs
import proofs.«150026_j60559038874107_2_alg».proof.Proof.KernelValue
import proofs.«150026_j60559038874107_2_alg».proof.Proof.RefValue
import proofs.«150026_j60559038874107_2_alg».proof.Proof.Finite

noncomputable section

namespace Cert.GraphConv.Bridge

open Idealize.ShloMosaic Idealize.ShloMosaic.TcCoe Idealize.SL.Sem Cert.GraphConv Cert.Scores

/-- The reference's neighbour sums are the kernel program's. -/
theorem agg_eq (E : IVec Cert.KernelIdeal.S2x160000 32) : RefValue.aggR E = KernelHost.aggK E := by
  funext X
  show Cert.ReferenceIdeal.Read.val_main_v13 (F := Ideal) X E = KernelHost.aggOf (KernelHost.srcOf E) (KernelHost.dstOf E) X
  unfold Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_c
    Cert.ReferenceIdeal.Read.val_main_c_0 Cert.ReferenceIdeal.Read.val_main_cst
    KernelHost.aggOf KernelHost.srcOf KernelHost.dstOf
  rfl

variable (m : (ℓ : Loc Cert.KernelIdeal.nD Cert.KernelIdeal.τ Cert.KernelIdeal.sig) → Buf (Elt Ideal) ℓ)

/-- Under the precondition the features and every layer's parameters are real. -/
theorem real_inputs (hpre : Cert.Pre_KernelIdeal (hPre_finite_inputs := Cert.Pre_finite_inputs.Gen.facts) m)
    (c : Dev Cert.KernelIdeal.nD) :
    AllReal (KernelValue.X0 m c) ∧ (KernelValue.p1 m c).Real ∧ (KernelValue.p2 m c).Real ∧ (KernelValue.p3 m c).Real := by
  obtain ⟨h0, h2, h3, h4, h5, h6, h7, h8, h9, h10, h11, h12, h13, h14, h15, h16⟩ :=
    Finite.real_of_finite _ _ _ _ _ _ _ _ _ _ _ _ _ _ _ _ _ (hpre c)
  exact ⟨h0, ⟨h2, h3, h4, h5, h6⟩, ⟨h7, h8, h9, h10, h11⟩, ⟨h12, h13, h14, h15, h16⟩⟩

end Cert.GraphConv.Bridge

end
-- ==== Proof.lean ====
/-
  The certificate: three stacked graph-convolution layers, fused by the kernel, split by the reference.

  Each layer computes, at node r and channel c,
      act ( A[r,·]·W_rel[c,·] + b_rel[c] + X[r,·]·W_root[c,·] + X[r,·]·W_lin[c,·] + b_lin[c] ),
  X the layer's input features and A their neighbour sums over the edge list.  The reference takes the three inner
  products separately.  The kernel program adds W_root and W_lin, and the two biases, on the host, and each of its three
  launches computes A·W_relᵀ + X·(W_root + W_lin)ᵀ + (b_rel + b_lin) tile by tile.  The two agree by distributivity,
  x·(a + b) = x·a + x·b, which on the extended reals needs x, a, b real: the inputs are finite by the precondition, and
  a layer of real features with real parameters is real, so the law is available at every layer.

  The frames of the two kernel programs are the generated frame certificates; the reference's frame is its generated run
  with the result dropped; no operation was rewritten by the idealization, so there is nothing to preserve.  For the value
  claim the kernel program's run is read at its result buffer (the fold through @main's segments, each launch's output
  the tile form of its operands), the reference's run is its generated term read one operation at a time, and the two
  networks are one function of the arguments.
-/
import proofs.«150026_j60559038874107_2_alg».proof.Defs
import proofs.«150026_j60559038874107_2_alg».proof.Proof.Gen.Kernel
import proofs.«150026_j60559038874107_2_alg».proof.Proof.Gen.Kernel.Skeleton
import proofs.«150026_j60559038874107_2_alg».proof.Proof.Gen.Kernel.Launch
import proofs.«150026_j60559038874107_2_alg».proof.Proof.Gen.Kernel.Points
import proofs.«150026_j60559038874107_2_alg».proof.Proof.Gen.Kernel.Frame
import proofs.«150026_j60559038874107_2_alg».proof.Proof.Gen.KernelIdeal
import proofs.«150026_j60559038874107_2_alg».proof.Proof.Gen.KernelIdeal.Skeleton
import proofs.«150026_j60559038874107_2_alg».proof.Proof.Gen.KernelIdeal.Launch
import proofs.«150026_j60559038874107_2_alg».proof.Proof.Gen.KernelIdeal.Points
import proofs.«150026_j60559038874107_2_alg».proof.Proof.Gen.KernelIdeal.Frame
import proofs.«150026_j60559038874107_2_alg».proof.Proof.Gen.ReferenceIdeal
import proofs.«150026_j60559038874107_2_alg».proof.Proof.Gen.ReferenceIdeal.Run
import proofs.«150026_j60559038874107_2_alg».proof.Proof.Gen.ReferenceIdeal.Read
import proofs.«150026_j60559038874107_2_alg».proof.Proof.Gen.Pre_finite_inputs
import proofs.«150026_j60559038874107_2_alg».proof.Proof.KernelRun
import proofs.«150026_j60559038874107_2_alg».proof.Proof.Bridge
import Idealize.ShloMosaic.Adequacy
import Idealize.ShloMosaic.Init

noncomputable section

namespace Cert.Proof

open Idealize.ShloMosaic Idealize.ShloMosaic.TcCoe Idealize.SL.Sem Cert.GraphConv

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at the three-layer network of the arguments: the kernel program's in the fused
    arrangement, the reference's in the split one, equal on real inputs. -/
theorem algebraic : Cert.algebraic_KernelIdeal_ReferenceIdeal := by
  intro m ρ m' ρ' hpre hagree
  refine ⟨fun c => Cert.KernelIdeal.Gen.W6 m ρ c (Proc.devRef .tc Cert.KernelIdeal.main_v51),
    KernelRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9, g10, g11, g12, g13, g14, g15, g16⟩ := hagree c
  obtain ⟨hX, h1, h2, h3⟩ := Bridge.real_inputs m hpre c
  rw [Cert.ReferenceIdeal.Read.val_main_v77_eq, g0, g1, g2, g3, g4, g5, g6, g7, g8, g9, g10, g11, g12, g13, g14, g15, g16]
  refine (RefValue.ref_value _ _ _ _ _ _ _ _ _ _ _ _ _ _ _ _ _).trans ?_
  refine Eq.trans ?_ (KernelValue.result m ρ c).symm
  rw [Bridge.agg_eq]
  exact (net_eq (KernelHost.aggK (KernelValue.E0 m c)) (KernelHost.aggK_real (KernelValue.E0 m c))
    (KernelValue.p1 m c) (KernelValue.p2 m c) (KernelValue.p3 m c) h1 h2 h3 (KernelValue.X0 m c) hX).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
